-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x256 : Shape := ⟨2, ![1024, 256]⟩
abbrev S256x256 : Shape := ⟨2, ![256, 256]⟩
abbrev S256x256x16 : Shape := ⟨3, ![256, 256, 16]⟩
abbrev S256 : Shape := ⟨1, ![256]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256x256x16 : S_.BroadcastsInDim S256x256x16 (![] : Fin 0 → Fin S256x256x16.rank)
  reducesTo_S256x256x16_S_d0_1_2 : S256x256x16.ReducesTo [0, 1, 2] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S1024x256 .f32) (main_arg1 : FVec F S256x256 .f32) (main_arg2 : FVec F S256x256x16 .f32) (main_arg3 : FVec F S256 .f32) : IVec S_ 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256x16 .f32 := Host.absf main_arg2
  let main_cst_2 : FVec F S_ .f32 := constant S_ .f32 0x7F800000#32
  let main_v10 : FVec F S256x256x16 .f32 := broadcastInDim S256x256x16 ![] bcast_S_S256x256x16 main_cst_2
  let main_v11 : IVec S256x256x16 1 := cmpf .olt main_v9 main_v10
  let main_c_3 : IVec S_ 1 := constantI S_ 1 1#1
  let main_v12 : IVec S_ 1 := (fun x v => Host.reduce IntOp.andi x v reducesTo_S256x256x16_S_d0_1_2 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S1024x256 : Shape := ⟨2, ![1024, 256]⟩
abbrev S256x256 : Shape := ⟨2, ![256, 256]⟩
abbrev S256x256x16 : Shape := ⟨3, ![256, 256, 16]⟩
abbrev S256 : Shape := ⟨1, ![256]⟩
abbrev S1x256 : Shape := ⟨2, ![1, 256]⟩
abbrev S16x256x256 : Shape := ⟨3, ![16, 256, 256]⟩
abbrev S32x256 : Shape := ⟨2, ![32, 256]⟩
abbrev S128x256 : Shape := ⟨2, ![128, 256]⟩
abbrev S16x128x256 : Shape := ⟨3, ![16, 128, 256]⟩
abbrev S1x128 : Shape := ⟨2, ![1, 128]⟩
abbrev S32x128 : Shape := ⟨2, ![32, 128]⟩
abbrev S32x1x256 : Shape := ⟨3, ![32, 1, 256]⟩
abbrev S1x128x256 : Shape := ⟨3, ![1, 128, 256]⟩
abbrev S32x128x256 : Shape := ⟨3, ![32, 128, 256]⟩

abbrev nBuf : Space → Nat
  | .hbm => 7
  | .vmem => 10
  | .smem => 0
  | _ => 0

abbrev bufTy : (tb : Table) → Fin (tcTables nBuf tb) → BufTy
  | .hbm, ⟨0, _⟩ => ⟨S1024x256, .f32⟩
  | .hbm, ⟨1, _⟩ => ⟨S256x256, .f32⟩
  | .hbm, ⟨2, _⟩ => ⟨S256x256x16, .f32⟩
  | .hbm, ⟨3, _⟩ => ⟨S256, .f32⟩
  | .hbm, ⟨4, _⟩ => ⟨S1x256, .f32⟩
  | .hbm, ⟨5, _⟩ => ⟨S16x256x256, .f32⟩
  | .hbm, ⟨6, _⟩ => ⟨S1024x256, .f32⟩
  | .local _ .vmem, ⟨0, _⟩ => ⟨S32x256, .f32⟩
  | .local _ .vmem, ⟨1, _⟩ => ⟨S32x256, .f32⟩
  | .local _ .vmem, ⟨2, _⟩ => ⟨S128x256, .f32⟩
  | .local _ .vmem, ⟨3, _⟩ => ⟨S128x256, .f32⟩
  | .local _ .vmem, ⟨4, _⟩ => ⟨S16x128x256, .f32⟩
  | .local _ .vmem, ⟨5, _⟩ => ⟨S16x128x256, .f32⟩
  | .local _ .vmem, ⟨6, _⟩ => ⟨S1x128, .f32⟩
  | .local _ .vmem, ⟨7, _⟩ => ⟨S1x128, .f32⟩
  | .local _ .vmem, ⟨8, _⟩ => ⟨S32x128, .f32⟩
  | .local _ .vmem, ⟨9, _⟩ => ⟨S32x128, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 32], ![false, false]⟩

@[reducible] def k0_t1_loop : Scf.Loop 32 :=
  let c0_i32 : BitVec 32 := 0#32
  let c16_i32 : BitVec 32 := 16#32
  let v16 : BitVec 32 := Scalar.addi c0_i32 c16_i32
  let c1_i32 : BitVec 32 := 1#32
  ⟨c0_i32, v16, c1_i32⟩
def k0_off1 (k0_t1 : Fin k0_t1_loop.trips) : Fin 3 → Nat :=
  let c0_i32 : BitVec 32 := 0#32
  let c1_i32 : BitVec 32 := 1#32
  let arg7 : BitVec 32 := Scf.iv c0_i32 c1_i32 k0_t1
  let v33 : Index := Scalar.indexCast arg7
  let c0_15 : Index := 0#32
  let c0_16 : Index := 0#32
  ![v33.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S256_S1x256 : S256.ShapeCasts S1x256
  transposes_S256x256x16_S16x256x256_2_0_1 : S256x256x16.Transposes [2, 0, 1] S16x256x256
  inb_S32x256_S32x256_0_0 : ∀ a, (![0, 0] : Fin 2 → Nat) a + S32x256.size a ≤ S32x256.size a
  h_S32x256 : 0 < S32x256.numel
  inb_S128x256_S128x256_0_0 : ∀ a, (![0, 0] : Fin 2 → Nat) a + S128x256.size a ≤ S128x256.size a
  h_S128x256 : 0 < S128x256.numel
  shapeCasts_S32x256_S32x1x256 : S32x256.ShapeCasts S32x1x256
  shapeCasts_S128x256_S1x128x256 : S128x256.ShapeCasts S1x128x256
  broadcasts_S32x1x256_S32x128x256 : S32x1x256.Broadcasts S32x128x256
  broadcasts_S1x128x256_S32x128x256 : S1x128x256.Broadcasts S32x128x256
  h_S1x128x256 : 0 < S1x128x256.numel
  shapeCasts_S1x128x256_S128x256 : S1x128x256.ShapeCasts S128x256
  reduces_S32x128x256_S32x128 : S32x128x256.Reduces [2] S32x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S32x128 : S1x128.Broadcasts S32x128
  inb_S32x128_S32x128_0_0 : ∀ a, (![0, 0] : Fin 2 → Nat) a + S32x128.size a ≤ S32x128.size a
  h_S32x128 : 0 < S32x128.numel
  hrank0 : 0 < grid0.rank
  k0_t1_ok : k0_t1_loop.OK
  k0_off1_inb : ∀ k0_t1 : Fin k0_t1_loop.trips, ∀ a, (k0_off1 k0_t1) a + S1x128x256.size a ≤ S16x128x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256.size a ≤ S1024x256.size a
  hwx0_0 : ∀ i : grid0.Coords, EltTy.bits .f32 = 32 ∨ (Rect.block (s := S1024x256) S32x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S256x256.size a
  hwx0_1 : ∀ i : grid0.Coords, EltTy.bits .f32 = 32 ∨ (Rect.block (s := S256x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x128x256.size a ≤ S16x256x256.size a
  hwx0_2 : ∀ i : grid0.Coords, EltTy.bits .f32 = 32 ∨ (Rect.block (s := S16x256x256) S16x128x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x256.size a
  hwx0_3 : ∀ i : grid0.Coords, EltTy.bits .f32 = 32 ∨ (Rect.block (s := S1x256) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x128.size a ≤ S1024x256.size a
  hwx0_4 : ∀ i : grid0.Coords, EltTy.bits .f32 = 32 ∨ (Rect.block (s := S1024x256) S32x128.size (cc0_transform_4 i) (hinb0_4 i)).WholeWords (EltTy.packing .f32)

variable [Facts₀]

abbrev win0_0 : Pipeline.Window sig grid0 :=
  Pipeline.Window.ofSpec (Memref.whole main_arg0) S32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S16x128x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S32x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1024x256 : Shape := ⟨2, ![1024, 256]⟩
abbrev S256x256 : Shape := ⟨2, ![256, 256]⟩
abbrev S256x256x16 : Shape := ⟨3, ![256, 256, 16]⟩
abbrev S256 : Shape := ⟨1, ![256]⟩
abbrev S1024x1x256 : Shape := ⟨3, ![1024, 1, 256]⟩
abbrev S1x256x256 : Shape := ⟨3, ![1, 256, 256]⟩
abbrev S1024x256x256 : Shape := ⟨3, ![1024, 256, 256]⟩
abbrev S_ : Shape := ⟨0, ![]⟩
abbrev S1x256x1 : Shape := ⟨3, ![1, 256, 1]⟩
abbrev S1x1x256 : Shape := ⟨3, ![1, 1, 256]⟩
abbrev S1024x256x256x1 : Shape := ⟨4, ![1024, 256, 256, 1]⟩
abbrev S1024x256x256x3 : Shape := ⟨4, ![1024, 256, 256, 3]⟩
abbrev S1x256 : Shape := ⟨2, ![1, 256]⟩

abbrev nBuf : Space → Nat
  | .hbm => 106
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S256x256, .f32⟩
  | .hbm, ⟨2, _⟩ => ⟨S256x256x16, .f32⟩
  | .hbm, ⟨3, _⟩ => ⟨S256, .f32⟩
  | .hbm, ⟨4, _⟩ => ⟨S1024x1x256, .f32⟩
  | .hbm, ⟨5, _⟩ => ⟨S1x256x256, .f32⟩
  | .hbm, ⟨6, _⟩ => ⟨S1024x256x256, .f32⟩
  | .hbm, ⟨7, _⟩ => ⟨S1024x256x256, .f32⟩
  | .hbm, ⟨8, _⟩ => ⟨S1024x256x256, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S1024x256x256, .f32⟩
  | .hbm, ⟨13, _⟩ => ⟨S1024x256x256, .f32⟩
  | .hbm, ⟨14, _⟩ => ⟨S_, .f32⟩
  | .hbm, ⟨15, _⟩ => ⟨S1024x256x256, .f32⟩
  | .hbm, ⟨16, _⟩ => ⟨S1024x256x256, .f32⟩
  | .hbm, ⟨17, _⟩ => ⟨S_, .f32⟩
  | .hbm, ⟨18, _⟩ => ⟨S1024x256x256, .f32⟩
  | .hbm, ⟨19, _⟩ => ⟨S1024x256x256, .f32⟩
  | .hbm, ⟨20, _⟩ => ⟨S_, .f32⟩
  | .hbm, ⟨21, _⟩ => ⟨S1024x256x256, .f32⟩
  | .hbm, ⟨22, _⟩ => ⟨S1024x256x256, .f32⟩
  | .hbm, ⟨23, _⟩ => ⟨S1024x256x256, .f32⟩
  | .hbm, ⟨24, _⟩ => ⟨S1024x256x256, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S1024x256x256, .i32⟩
  | .hbm, ⟨29, _⟩ => ⟨S1024x256x256, .i32⟩
  | .hbm, ⟨30, _⟩ => ⟨S_, .i32⟩
  | .hbm, ⟨31, _⟩ => ⟨S1024x256x256, .i32⟩
  | .hbm, ⟨32, _⟩ => ⟨S1024x256x256, .i32⟩
  | .hbm, ⟨33, _⟩ => ⟨S1024x256x256, .f32⟩
  | .hbm, ⟨34, _⟩ => ⟨S1024x256x256, .f32⟩
  | .hbm, ⟨35, _⟩ => ⟨S256, .i32⟩
  | .hbm, ⟨36, _⟩ => ⟨S1x256x1, .i32⟩
  | .hbm, ⟨37, _⟩ => ⟨S256, .i32⟩
  | .hbm, ⟨38, _⟩ => ⟨S1x1x256, .i32⟩
  | .hbm, ⟨39, _⟩ => ⟨S_, .i32⟩
  | .hbm, ⟨40, _⟩ => ⟨S1x256x1, .i32⟩
  | .hbm, ⟨41, _⟩ => ⟨S1x256x1, .i1⟩
  | .hbm, ⟨42, _⟩ => ⟨S_, .i32⟩
  | .hbm, ⟨43, _⟩ => ⟨S1x256x1, .i32⟩
  | .hbm, ⟨44, _⟩ => ⟨S1x256x1, .i32⟩
  | .hbm, ⟨45, _⟩ => ⟨S1x256x1, .i32⟩
  | .hbm, ⟨46, _⟩ => ⟨S_, .i32⟩
  | .hbm, ⟨47, _⟩ => ⟨S1x1x256, .i32⟩
  | .hbm, ⟨48, _⟩ => ⟨S1x1x256, .i1⟩
  | .hbm, ⟨49, _⟩ => ⟨S_, .i32⟩
  | .hbm, ⟨50, _⟩ => ⟨S1x1x256, .i32⟩
  | .hbm, ⟨51, _⟩ => ⟨S1x1x256, .i32⟩
  | .hbm, ⟨52, _⟩ => ⟨S1x1x256, .i32⟩
  | .hbm, ⟨53, _⟩ => ⟨S_, .i32⟩
  | .hbm, ⟨54, _⟩ => ⟨S1024x256x256, .i32⟩
  | .hbm, ⟨55, _⟩ => ⟨S1024x256x256, .i1⟩
  | .hbm, ⟨56, _⟩ => ⟨S_, .i32⟩
  | .hbm, ⟨57, _⟩ => ⟨S1024x256x256, .i32⟩
  | .hbm, ⟨58, _⟩ => ⟨S1024x256x256, .i32⟩
  | .hbm, ⟨59, _⟩ => ⟨S1024x256x256, .i32⟩
  | .hbm, ⟨60, _⟩ => ⟨S1024x256x256, .i32⟩
  | .hbm, ⟨61, _⟩ => ⟨S1024x256x256, .i32⟩
  | .hbm, ⟨62, _⟩ => ⟨S1024x256x256x1, .i32⟩
  | .hbm, ⟨63, _⟩ => ⟨S1024x256x256x1, .i32⟩
  | .hbm, ⟨64, _⟩ => ⟨S1024x256x256x1, .i32⟩
  | .hbm, ⟨65, _⟩ => ⟨S1024x256x256x3, .i32⟩
  | .hbm, ⟨66, _⟩ => ⟨S1024x256x256, .f32⟩
  | .hbm, ⟨67, _⟩ => ⟨S_, .i32⟩
  | .hbm, ⟨68, _⟩ => ⟨S1024x256x256, .i32⟩
  | .hbm, ⟨69, _⟩ => ⟨S1024x256x256, .i32⟩
  | .hbm, ⟨70, _⟩ => ⟨S_, .i32⟩
  | .hbm, ⟨71, _⟩ => ⟨S1x256x1, .i32⟩
  | .hbm, ⟨72, _⟩ => ⟨S1x256x1, .i1⟩
  | .hbm, ⟨73, _⟩ => ⟨S_, .i32⟩
  | .hbm, ⟨74, _⟩ => ⟨S1x256x1, .i32⟩
  | .hbm, ⟨75, _⟩ => ⟨S1x256x1, .i32⟩
  | .hbm, ⟨76, _⟩ => ⟨S1x256x1, .i32⟩
  | .hbm, ⟨77, _⟩ => ⟨S_, .i32⟩
  | .hbm, ⟨78, _⟩ => ⟨S1x1x256, .i32⟩
  | .hbm, ⟨79, _⟩ => ⟨S1x1x256, .i1⟩
  | .hbm, ⟨80, _⟩ => ⟨S_, .i32⟩
  | .hbm, ⟨81, _⟩ => ⟨S1x1x256, .i32⟩
  | .hbm, ⟨82, _⟩ => ⟨S1x1x256, .i32⟩
  | .hbm, ⟨83, _⟩ => ⟨S1x1x256, .i32⟩
  | .hbm, ⟨84, _⟩ => ⟨S_, .i32⟩
  | .hbm, ⟨85, _⟩ => ⟨S1024x256x256, .i32⟩
  | .hbm, ⟨86, _⟩ => ⟨S1024x256x256, .i1⟩
  | .hbm, ⟨87, _⟩ => ⟨S_, .i32⟩
  | .hbm, ⟨88, _⟩ => ⟨S1024x256x256, .i32⟩
  | .hbm, ⟨89, _⟩ => ⟨S1024x256x256, .i32⟩
  | .hbm, ⟨90, _⟩ => ⟨S1024x256x256, .i32⟩
  | .hbm, ⟨91, _⟩ => ⟨S1024x256x256, .i32⟩
  | .hbm, ⟨92, _⟩ => ⟨S1024x256x256, .i32⟩
  | .hbm, ⟨93, _⟩ => ⟨S1024x256x256x1, .i32⟩
  | .hbm, ⟨94, _⟩ => ⟨S1024x256x256x1, .i32⟩
  | .hbm, ⟨95, _⟩ => ⟨S1024x256x256x1, .i32⟩
  | .hbm, ⟨96, _⟩ => ⟨S1024x256x256x3, .i32⟩
  | .hbm, ⟨97, _⟩ => ⟨S1024x256x256, .f32⟩
  | .hbm, ⟨98, _⟩ => ⟨S1024x256x256, .f32⟩
  | .hbm, ⟨99, _⟩ => ⟨S1024x256x256, .f32⟩
  | .hbm, ⟨100, _⟩ => ⟨S1024x256x256, .f32⟩
  | .hbm, ⟨101, _⟩ => ⟨S_, .f32⟩
  | .hbm, ⟨102, _⟩ => ⟨S1024x256, .f32⟩
  | .hbm, ⟨103, _⟩ => ⟨S1x256, .f32⟩
  | .hbm, ⟨104, _⟩ => ⟨S1024x256, .f32⟩
  | .hbm, ⟨105, _⟩ => ⟨S1024x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_c_3 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_4 : Ref sig .tc := ⟨.hbm, 39, rfl⟩
abbrev main_v19 : Ref sig .tc := ⟨.hbm, 40, rfl⟩
abbrev main_v20 : Ref sig .tc := ⟨.hbm, 41, rfl⟩
abbrev main_c_5 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_6 : Ref sig .tc := ⟨.hbm, 46, rfl⟩
abbrev main_v24 : Ref sig .tc := ⟨.hbm, 47, rfl⟩
abbrev main_v25 : Ref sig .tc := ⟨.hbm, 48, rfl⟩
abbrev main_c_7 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_c_8 : Ref sig .tc := ⟨.hbm, 53, rfl⟩
abbrev main_v29 : Ref sig .tc := ⟨.hbm, 54, rfl⟩
abbrev main_v30 : Ref sig .tc := ⟨.hbm, 55, rfl⟩
abbrev main_c_9 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_c_10 : Ref sig .tc := ⟨.hbm, 67, rfl⟩
abbrev main_v41 : Ref sig .tc := ⟨.hbm, 68, rfl⟩
abbrev main_v42 : Ref sig .tc := ⟨.hbm, 69, rfl⟩
abbrev main_c_11 : Ref sig .tc := ⟨.hbm, 70, rfl⟩
abbrev main_v43 : Ref sig .tc := ⟨.hbm, 71, rfl⟩
abbrev main_v44 : Ref sig .tc := ⟨.hbm, 72, rfl⟩
abbrev main_c_12 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_c_13 : Ref sig .tc := ⟨.hbm, 77, rfl⟩
abbrev main_v48 : Ref sig .tc := ⟨.hbm, 78, rfl⟩
abbrev main_v49 : Ref sig .tc := ⟨.hbm, 79, rfl⟩
abbrev main_c_14 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_c_15 : Ref sig .tc := ⟨.hbm, 84, rfl⟩
abbrev main_v53 : Ref sig .tc := ⟨.hbm, 85, rfl⟩
abbrev main_v54 : Ref sig .tc := ⟨.hbm, 86, rfl⟩
abbrev main_c_16 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_17 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩

abbrev nD : Nat := 1
abbrev τ : Topo := Topo.v7x

variable {F : FTy → Type} [FloatOps F]

class Facts₀ : Prop where
  bcast_S1024x256_S1024x1x256_0_2 : S1024x256.BroadcastsInDim S1024x1x256 (![0, 2] : Fin 2 → Fin S1024x1x256.rank)
  bcast_S256x256_S1x256x256_1_2 : S256x256.BroadcastsInDim S1x256x256 (![1, 2] : Fin 2 → Fin S1x256x256.rank)
  bcast_S1024x1x256_S1024x256x256_0_1_2 : S1024x1x256.BroadcastsInDim S1024x256x256 (![0, 1, 2] : Fin 3 → Fin S1024x256x256.rank)
  bcast_S1x256x256_S1024x256x256_0_1_2 : S1x256x256.BroadcastsInDim S1024x256x256 (![0, 1, 2] : Fin 3 → Fin S1024x256x256.rank)
  bcast_S_S1024x256x256 : S_.BroadcastsInDim S1024x256x256 (![] : Fin 0 → Fin S1024x256x256.rank)
  bcast_S256_S1x256x1_1 : S256.BroadcastsInDim S1x256x1 (![1] : Fin 1 → Fin S1x256x1.rank)
  bcast_S256_S1x1x256_2 : S256.BroadcastsInDim S1x1x256 (![2] : Fin 1 → Fin S1x1x256.rank)
  bcast_S_S1x256x1 : S_.BroadcastsInDim S1x256x1 (![] : Fin 0 → Fin S1x256x1.rank)
  bcast_S_S1x1x256 : S_.BroadcastsInDim S1x1x256 (![] : Fin 0 → Fin S1x1x256.rank)
  bcast_S1x256x1_S1024x256x256_0_1_2 : S1x256x1.BroadcastsInDim S1024x256x256 (![0, 1, 2] : Fin 3 → Fin S1024x256x256.rank)
  bcast_S1x1x256_S1024x256x256_0_1_2 : S1x1x256.BroadcastsInDim S1024x256x256 (![0, 1, 2] : Fin 3 → Fin S1024x256x256.rank)
  bcast_S1024x256x256_S1024x256x256x1_0_1_2 : S1024x256x256.BroadcastsInDim S1024x256x256x1 (![0, 1, 2] : Fin 3 → Fin S1024x256x256x1.rank)
  concatenates_S1024x256x256x1_S1024x256x256x1_S1024x256x256x1_S1024x256x256x3_d3 : Shape.Concatenates [S1024x256x256x1, S1024x256x256x1, S1024x256x256x1] S1024x256x256x3 3
  reducesTo_S1024x256x256_S1024x256_d2 : S1024x256x256.ReducesTo [2] S1024x256
  h_S_ : 0 < S_.numel
  bcast_S256_S1x256_1 : S256.BroadcastsInDim S1x256 (![1] : Fin 1 → Fin S1x256.rank)
  bcast_S1x256_S1024x256_0_1 : S1x256.BroadcastsInDim S1024x256 (![0, 1] : Fin 2 → Fin S1024x256.rank)
  gather_S256x256x16_S1024x256x256x3_S1024x256x256_n_012_n_n_012_3_111_wf : GatherDims.WF S256x256x16 S1024x256x256x3 S1024x256x256 [] [0, 1, 2] [] [0, 1, 2] [] 3 ![1, 1, 1]

variable [Facts₀]

def gather_S256x256x16_S1024x256x256x3_S1024x256x256_n_012_n_n_012_3_111 : GatherDims S256x256x16 S1024x256x256x3 S1024x256x256 where
  offsetDims := []
  collapsedSliceDims := [0, 1, 2]
  operandBatchingDims := []
  startIndicesBatchingDims := []
  startIndexMap := [0, 1, 2]
  indexVectorDim := 3
  sliceSizes := ![1, 1, 1]
  wf := gather_S256x256x16_S1024x256x256x3_S1024x256x256_n_012_n_n_012_3_111_wf

class Facts : Prop extends Facts₀ where

variable [Facts]
-- ==== Proof.KerPiece.lean ====
/-
  What one grid point of the kernel stores, as a pure function of the point's four input blocks.

  The body loads the `x` block `[32, 256]` and the `W` block `[128, 256]`, runs sixteen trips of a loop whose carried
  `[32, 128]` accumulator starts at zero and at trip `g` adds the row sums of (hat weight of knot `g`) × (slab `g` of the
  `[16, 128, 256]` spline block), then adds the bias row and stores the result over the whole output block.
-/
import proofs.«143318_j14714557956115_2_alg».proof.Proof.Gen.KernelIdeal.Value
import Idealize.ShloMosaic.Lib.Pipeline.Value

noncomputable section

namespace Cert.KernelIdeal.Body

open Idealize.ShloMosaic Idealize.ShloMosaic.TcCoe Idealize.SL.Sem Idealize.ShloMosaic.Tactic
open Cert.KernelIdeal Cert.KernelIdeal.Gen

variable {F : FTy → Type} [FloatOps F]

theorem zero2 : (![0, 0] : Fin 2 → ℕ) = fun _ => 0 := by
  funext a; match a with | ⟨0, _⟩ => rfl | ⟨1, _⟩ => rfl

/-- Slab `g` of the staged spline block: its `[1, 128, 256]` sub-array at leading offset `g`. -/
def slab (x2 : Vec F S16x128x256 .f32) (k : Fin k0_t1_loop.trips) : Vec F S1x128x256 .f32 :=
  View.ld x2 (Rect.unit (s := S16x128x256) (k0_off1 k) S1x128x256.size (k0_off1_inb k))

/-- The accumulator before trip `n`: zero, then one trip's update after another. -/
def accAt (x0 : Vec F S32x256 .f32) (x1 : Vec F S128x256 .f32) (x2 : Vec F S16x128x256 .f32) : ℕ → FVec F S32x128 .f32
  | 0 => k0_pay1
  | n + 1 => if h : n < k0_t1_loop.trips then k0_pay2 x0 x1 ⟨n, h⟩ (accAt x0 x1 x2 n) (slab x2 ⟨n, h⟩) else accAt x0 x1 x2 n

/-- One trip's result is the trip's update of the carried value with the slab it loads. -/
theorem trip_eq (𝒱 : Variants) (c : Dev nD) (bd : Option 𝒱.V) (i : grid0.Coords) (arg2 : Memref sig .tc .vmem S32x256 .f32) (harg2 : arg2.IsWhole) (arg3 : Memref sig .tc .vmem S128x256 .f32) (harg3 : arg3.IsWhole) (arg4 : Memref sig .tc .vmem S16x128x256 .f32) (harg4 : arg4.IsWhole) (arg5 : Memref sig .tc .vmem S1x128 .f32) (harg5 : arg5.IsWhole) (arg6 : Memref sig .tc .vmem S32x128 .f32) (harg6 : arg6.IsWhole)
    (v0 : Vec F S32x256 .f32) (v1 : Vec F S128x256 .f32) (x2 : Vec F S16x128x256 .f32) (k : Fin k0_t1_loop.trips) (acc : FVec F S32x128 .f32) :
    tripR_k0_t1 (F := F) 𝒱 c bd i arg2 harg2 arg3 harg3 arg4 harg4 arg5 harg5 arg6 harg6 v0 v1 (harg4.unread x2) k acc
      = k0_pay2 v0 v1 k acc (slab x2 k) := by
  unfold tripR_k0_t1 trip_k0_t1
  dsimp only
  rw [View.readAt_eq_ld, harg4.read_unread]
  rfl

/-- The carried value the run finds before trip `n` is `accAt`. -/
theorem st_eq (𝒱 : Variants) (c : Dev nD) (bd : Option 𝒱.V) (i : grid0.Coords) (arg2 : Memref sig .tc .vmem S32x256 .f32) (harg2 : arg2.IsWhole) (arg3 : Memref sig .tc .vmem S128x256 .f32) (harg3 : arg3.IsWhole) (arg4 : Memref sig .tc .vmem S16x128x256 .f32) (harg4 : arg4.IsWhole) (arg5 : Memref sig .tc .vmem S1x128 .f32) (harg5 : arg5.IsWhole) (arg6 : Memref sig .tc .vmem S32x128 .f32) (harg6 : arg6.IsWhole)
    (v0 : Vec F S32x256 .f32) (v1 : Vec F S128x256 .f32) (x2 : Vec F S16x128x256 .f32) (n : ℕ) :
    st_k0_t1 (F := F) 𝒱 c bd i arg2 harg2 arg3 harg3 arg4 harg4 arg5 harg5 arg6 harg6 v0 v1 (harg4.unread x2) k0_pay1 n
      = accAt v0 v1 x2 n := by
  induction n with
  | zero => rfl
  | succ n ih =>
    rw [st_k0_t1.eq_2, accAt]
    unfold st_k0_t1Step
    by_cases h : n < k0_t1_loop.trips
    · rw [dif_pos h, dif_pos h, ih, trip_eq]
    · rw [dif_neg h, dif_neg h, ih]

/-- WHAT THE POINT STORES: the accumulator after the last trip plus the bias row. -/
theorem out_eq (c : Dev nD) (i : grid0.Coords) (arg2 : Memref sig .tc .vmem S32x256 .f32) (harg2 : arg2.IsWhole) (arg3 : Memref sig .tc .vmem S128x256 .f32) (harg3 : arg3.IsWhole) (arg4 : Memref sig .tc .vmem S16x128x256 .f32) (harg4 : arg4.IsWhole) (arg5 : Memref sig .tc .vmem S1x128 .f32) (harg5 : arg5.IsWhole) (arg6 : Memref sig .tc .vmem S32x128 .f32) (harg6 : arg6.IsWhole)
    (x0 : Vec F S32x256 .f32) (x1 : Vec F S128x256 .f32) (x2 : Vec F S16x128x256 .f32) (x3 : Vec F S1x128 .f32) :
    out0_A_4 c i arg2 harg2 arg3 harg3 arg4 harg4 arg5 harg5 arg6 harg6 x0 x1 x2 x3
      = k0_pay3 (accAt x0 x1 x2 k0_t1_loop.trips) x3 := by
  unfold out0_A_4
  rw [View.read_writes_eq_canon _ _ _ (cover0_A_4 c i arg2 harg2 arg3 harg3 arg4 harg4 arg5 harg5 arg6 harg6 x0 x1 x2 x3)]
  unfold kernelRun0_A
  dsimp only
  rw [View.canon_unit_zero zero2]
  simp only [View.readAt_eq_ld, harg2.read_unread, harg3.read_unread, harg5.read_unread,
    View.ld_unit_zero (S := S32x256) zero2, View.ld_unit_zero (S := S128x256) zero2, View.ld_unit_zero (S := S1x128) zero2]
  rw [st_eq]

end Cert.KernelIdeal.Body

end
-- ==== Proof.Hat.lean ====
/-
  Piecewise-linear interpolation on the uniform grid of the sixteen knots 0, 1, …, 15, written two ways.

  For a grid coordinate `u` in [0, 15] and knot values `v 0 … v 15`:
  * by the cell: with `k` the integer part of `u` (14 at the right end `u = 15`), the value is
    `v k + (u - k) · (v (k+1) - v k)`;
  * by the hat basis: `∑ g, max 0 (1 - |u - g|) · v g` (the weight also capped at 1, which changes nothing).
  The two agree: inside the cell [k, k+1] only the hats of `k` and `k + 1` are non-zero, with weights
  `1 - (u - k)` and `u - k`.
-/
import Mathlib.Data.EReal.Inv
import Mathlib.Algebra.Order.Archimedean.Real.Basic
import Mathlib.Algebra.BigOperators.Fin
import Mathlib.Tactic.Linarith
import Mathlib.Tactic.NormNum
import Mathlib.Tactic.Ring

noncomputable section

namespace Spline

/-- The weight of knot `g` at grid coordinate `u`: the hat `1 - |u - g|`, cut to [0, 1]. -/
def hat (u g : ℝ) : ℝ := min 1 (max 0 (1 - |u - g|))

/-- The cell of `u`: its integer part, at most 14 (so that `u = 15` falls in the last cell [14, 15]). -/
def cell (u : ℝ) : ℕ := min 14 ⌊u⌋₊

theorem cell_le (u : ℝ) : cell u ≤ 14 := Nat.min_le_left _ _

/-- A coordinate in [0, 15] lies in its cell. -/
theorem cell_bounds {u : ℝ} (h0 : 0 ≤ u) (h15 : u ≤ 15) : (cell u : ℝ) ≤ u ∧ u ≤ (cell u : ℝ) + 1 := by
  unfold cell
  rcases Nat.le_total ⌊u⌋₊ 14 with h | h
  · rw [Nat.min_eq_right h]
    exact ⟨Nat.floor_le h0, (Nat.lt_floor_add_one u).le⟩
  · rw [Nat.min_eq_left h]
    have : ((14 : ℕ) : ℝ) ≤ u := le_trans (by exact_mod_cast h) (Nat.floor_le h0)
    push_cast at this ⊢
    constructor <;> linarith

/-- Inside the cell [k, k+1] the hat of `k` weighs `1 - (u - k)`, -/
theorem hat_left {u k : ℝ} (h1 : k ≤ u) (h2 : u ≤ k + 1) : hat u k = 1 - (u - k) := by
  unfold hat
  rw [abs_of_nonneg (by linarith), max_eq_right (by linarith), min_eq_right (by linarith)]

/-- the hat of `k + 1` weighs `u - k`, -/
theorem hat_right {u k : ℝ} (h1 : k ≤ u) (h2 : u ≤ k + 1) : hat u (k + 1) = u - k := by
  unfold hat
  rw [abs_of_nonpos (by linarith), max_eq_right (by linarith), min_eq_right (by linarith)]
  ring

/-- and a knot at distance at least one weighs nothing. -/
theorem hat_far {u g : ℝ} (h : 1 ≤ |u - g|) : hat u g = 0 := by
  unfold hat
  rw [max_eq_left (by linarith), min_eq_right (by norm_num)]

/-- THE HAT BASIS REPRODUCES LINEAR INTERPOLATION on [0, 15]. -/
theorem hat_sum {u : ℝ} (h0 : 0 ≤ u) (h15 : u ≤ 15) (v : Fin 16 → ℝ) :
    ∑ g : Fin 16, hat u (g.val : ℝ) * v g
      = v ⟨cell u, by have := cell_le u; omega⟩
        + (u - (cell u : ℝ)) * (v ⟨cell u + 1, by have := cell_le u; omega⟩ - v ⟨cell u, by have := cell_le u; omega⟩) := by
  obtain ⟨h1, h2⟩ := cell_bounds h0 h15
  have hk := cell_le u
  set k := cell u with hkdef
  rw [Finset.sum_eq_add (⟨k, by omega⟩ : Fin 16) ⟨k + 1, by omega⟩ (by simp [Fin.ext_iff])]
  · show hat u ((k : ℕ) : ℝ) * _ + hat u (((k + 1 : ℕ)) : ℝ) * _ = _
    push_cast
    rw [hat_left h1 h2, hat_right h1 h2]
    ring
  · intro g _ hg
    have hgk : g.val ≠ k := fun h => hg.1 (Fin.ext h)
    have hgk1 : g.val ≠ k + 1 := fun h => hg.2 (Fin.ext h)
    rw [hat_far, zero_mul]
    rcases Nat.lt_or_gt_of_ne hgk with hlt | hgt
    · have : ((g.val : ℕ) : ℝ) + 1 ≤ (k : ℝ) := by exact_mod_cast hlt
      rw [abs_of_nonneg (by linarith)]; linarith
    · have hgt2 : k + 2 ≤ g.val := by omega
      have : ((k : ℕ) : ℝ) + 2 ≤ (g.val : ℝ) := by exact_mod_cast hgt2
      rw [abs_of_nonpos (by linarith)]; linarith
  · intro h; exact absurd (Finset.mem_univ _) h
  · intro h; exact absurd (Finset.mem_univ _) h

end Spline

end
-- ==== Proof.LibGatherPoint.lean ====
/-
  A `stablehlo.gather` of single elements of a rank-3 operand, read at an index.

  What `x[o_idx, i_idx, k_idx]` with three broadcast integer index arrays lowers to: the three index arrays are joined
  along a new last axis into start indices `[P, Q, R, 3]`, and the gather has no offset axis, collapses all three operand
  axes, maps start-index component `c` to operand axis `c`, and takes slices of size `[1, 1, 1]`. Result element
  `(p, q, r)` is the operand at the three start-index components `idx[p, q, r, 0 … 2]`, each read as a signed integer
  and clamped into its axis (StableHLO clamps every start index so that the slice fits).
-/
import Idealize.ShloMosaic.Lib.ValueIdx

noncomputable section

namespace Idealize.ShloMosaic.GatherPoint

open Idealize.ShloMosaic Idealize.ShloMosaic.ValueIdx

variable {α : Type}

/-- Those dimension numbers for an operand `[A, B, C]`, start indices `[P, Q, R, 3]` and a result `[P, Q, R]`; their
    conditions `wf` are decided on a program's literal shapes. -/
abbrev pointDims (A B C P Q R : Nat)
    (wf : GatherDims.WF ⟨3, ![A, B, C]⟩ ⟨4, ![P, Q, R, 3]⟩ ⟨3, ![P, Q, R]⟩ [] [0, 1, 2] [] [0, 1, 2] [] 3 ![1, 1, 1]) :
    GatherDims ⟨3, ![A, B, C]⟩ ⟨4, ![P, Q, R, 3]⟩ ⟨3, ![P, Q, R]⟩ where
  offsetDims := []
  collapsedSliceDims := [0, 1, 2]
  operandBatchingDims := []
  startIndicesBatchingDims := []
  startIndexMap := [0, 1, 2]
  indexVectorDim := 3
  sliceSizes := ![1, 1, 1]
  wf := wf

/-- The start-indices index `[p, q, r, c]` of component `c` of result index `(p, q, r)`'s start index. -/
abbrev pointIdx {P Q R : Nat} (y : (⟨3, ![P, Q, R]⟩ : Shape).Idx) (c : Fin 3) : (⟨4, ![P, Q, R, 3]⟩ : Shape).Idx :=
  ix4 (y 0) (y 1) (y 2) c

/-- A start-index component read signed and clamped into an axis of extent `n`. -/
abbrev clampTo {w : Nat} (n : Nat) (hn : 0 < n) (b : BitVec w) : Fin n := ⟨min b.toInt.toNat (n - 1), by omega⟩

/-- THE GATHER READ AT `(p, q, r)`: the operand at the three start-index components, each read signed and clamped
    into its axis. -/
theorem gather_point_apply {A B C P Q R w : Nat} (hA : 0 < A) (hB : 0 < B) (hC : 0 < C)
    (wf : GatherDims.WF ⟨3, ![A, B, C]⟩ ⟨4, ![P, Q, R, 3]⟩ ⟨3, ![P, Q, R]⟩ [] [0, 1, 2] [] [0, 1, 2] [] 3 ![1, 1, 1])
    (x : (⟨3, ![A, B, C]⟩ : Shape).Idx → α) (idx : IVec ⟨4, ![P, Q, R, 3]⟩ w) (y : (⟨3, ![P, Q, R]⟩ : Shape).Idx) :
    Host.gather (pointDims A B C P Q R wf) x idx y
      = x (ix3 (clampTo A hA (idx (pointIdx y 0))) (clampTo B hB (idx (pointIdx y 1))) (clampTo C hC (idx (pointIdx y 2)))) := by
  unfold Host.gather
  congr 1
  funext a
  refine Fin.ext ?_
  show (pointDims A B C P Q R wf).start y idx a + (pointDims A B C P Q R wf).batchCoord y a
      + (pointDims A B C P Q R wf).offCoord y a = _
  have hcol : a ∈ (pointDims A B C P Q R wf).collapsedSliceDims := by
    match a with
    | ⟨0, _⟩ => exact List.mem_cons_self ..
    | ⟨1, _⟩ => exact List.mem_cons_of_mem _ (List.mem_cons_self ..)
    | ⟨2, _⟩ => exact List.mem_cons_of_mem _ (List.mem_cons_of_mem _ (List.mem_cons_self ..))
  rw [GatherDims.batchCoord_eq_zero _ _ _ List.not_mem_nil,
    GatherDims.offCoord_eq_zero _ _ _ (fun h => ((GatherDims.mem_sKept _ _).mp h).1 hcol)]
  simp only [Nat.add_zero]
  unfold GatherDims.start
  rw [dif_pos (show a ∈ (pointDims A B C P Q R wf).startIndexMap from hcol)]
  match a with
  | ⟨0, h0⟩ =>
    have hsi : (pointDims A B C P Q R wf).siIdx y ⟨List.idxOf (⟨0, h0⟩ : Fin 3) (pointDims A B C P Q R wf).startIndexMap,
        List.idxOf_lt_length_iff.2 hcol⟩ = pointIdx y 0 := by
      funext b; refine Fin.ext ?_
      match b with
      | ⟨0, _⟩ => rfl
      | ⟨1, _⟩ => rfl
      | ⟨2, _⟩ => rfl
      | ⟨3, _⟩ => rfl
    rw [hsi]; rfl
  | ⟨1, h1⟩ =>
    have hsi : (pointDims A B C P Q R wf).siIdx y ⟨List.idxOf (⟨1, h1⟩ : Fin 3) (pointDims A B C P Q R wf).startIndexMap,
        List.idxOf_lt_length_iff.2 hcol⟩ = pointIdx y 1 := by
      funext b; refine Fin.ext ?_
      match b with
      | ⟨0, _⟩ => rfl
      | ⟨1, _⟩ => rfl
      | ⟨2, _⟩ => rfl
      | ⟨3, _⟩ => rfl
    rw [hsi]; rfl
  | ⟨2, h2⟩ =>
    have hsi : (pointDims A B C P Q R wf).siIdx y ⟨List.idxOf (⟨2, h2⟩ : Fin 3) (pointDims A B C P Q R wf).startIndexMap,
        List.idxOf_lt_length_iff.2 hcol⟩ = pointIdx y 2 := by
      funext b; refine Fin.ext ?_
      match b with
      | ⟨0, _⟩ => rfl
      | ⟨1, _⟩ => rfl
      | ⟨2, _⟩ => rfl
      | ⟨3, _⟩ => rfl
    rw [hsi]; rfl

end Idealize.ShloMosaic.GatherPoint

end
-- ==== Proof.HatE.lean ====
/-
  The interpolation identity of `Hat.lean` on the extended reals, in the spelling of the two programs.

  Both programs form the grid coordinate `u = (min 1 (max (-1) (a·b)) + 1) · 7.5` of a product `a·b`; for real factors
  it is a real number in [0, 15]. One program sums `min 1 (max 0 (1 - |u - g|)) · s g` over the sixteen knots `g`; the other
  takes the cell index `k` — the floor of `u`, converted to a 32-bit integer and clipped to [0, 14] —, reads the knot values at
  `k` and `k + 1` (through the index normalisation `i < 0 ? i + 16 : i` and a clamp into [0, 15], neither of which moves an
  index in range) and forms `s k + (u - k) · (s (k+1) - s k)`. For real knot values the two agree.
-/
import Idealize.ShloMosaic.PureOps.Ideal
import proofs.«143318_j14714557956115_2_alg».proof.Proof.Hat
import proofs.«143318_j14714557956115_2_alg».proof.Proof.LibGatherPoint

noncomputable section

namespace Spline

open Idealize.ShloMosaic Idealize.ShloMosaic.GatherPoint

/-! ## The four float words -/

theorem word_zero : Ideal.ofBits .f32 0x00000000#32 = ((0 : ℝ) : EReal) := by
  simp [Ideal.ofBits, Ideal.ieee]
theorem word_one : Ideal.ofBits .f32 0x3F800000#32 = ((1 : ℝ) : EReal) := by
  simp [Ideal.ofBits, Ideal.ieee, -EReal.coe_mul]; norm_num
theorem word_neg_one : Ideal.ofBits .f32 0xBF800000#32 = ((-1 : ℝ) : EReal) := by
  simp [Ideal.ofBits, Ideal.ieee, -EReal.coe_mul]; norm_num
theorem word_7_5 : Ideal.ofBits .f32 0x40F00000#32 = ((7.5 : ℝ) : EReal) := by
  simp [Ideal.ofBits, Ideal.ieee, -EReal.coe_mul]; norm_num

/-! ## The coordinate, the hat weight and the cell index, as the programs spell them -/

/-- The grid coordinate of the product `a · b`. -/
def coordE (a b : EReal) : EReal :=
  (min (Ideal.ofBits .f32 0x3F800000#32) (max (Ideal.ofBits .f32 0xBF800000#32) (a * b)) + Ideal.ofBits .f32 0x3F800000#32)
    * Ideal.ofBits .f32 0x40F00000#32

/-- The weight of knot number `g` (a 32-bit integer, read signed) at coordinate `u`. -/
def hatE (u : EReal) (g : BitVec 32) : EReal :=
  min (Ideal.ofBits .f32 0x3F800000#32) (max (Ideal.ofBits .f32 0x00000000#32)
    (Ideal.ofBits .f32 0x3F800000#32 - max (u - ((g.toInt : ℝ) : EReal)) (-(u - ((g.toInt : ℝ) : EReal)))))

/-- The cell index of coordinate `u` as a 32-bit integer: floor, convert, clip to [0, 14]. -/
def cellW (u : EReal) : BitVec 32 :=
  IntOp.minsi 14#32 (IntOp.maxsi 0#32 (Ideal.fptosi 32 (Ideal.liftRound Int.floor u)))

/-- The index normalisation `i < 0 ? i + n : i`. -/
def wrapW (n i : BitVec 32) : BitVec 32 := Scalar.select (IntOp.cmpi .slt i 0#32) (IntOp.addi i n) i

/-! ## On real factors -/

/-- The coordinate of real factors, as a real number. -/
def coordR (a b : ℝ) : ℝ := (min 1 (max (-1) (a * b)) + 1) * 7.5

theorem coordR_nonneg (a b : ℝ) : 0 ≤ coordR a b := by
  unfold coordR
  have : -1 ≤ min 1 (max (-1) (a * b)) := le_min (by norm_num) (le_max_left _ _)
  nlinarith
theorem coordR_le (a b : ℝ) : coordR a b ≤ 15 := by
  unfold coordR
  have : min 1 (max (-1) (a * b)) ≤ 1 := min_le_left _ _
  nlinarith

theorem coe_max (x y : ℝ) : ((max x y : ℝ) : EReal) = max (x : EReal) (y : EReal) :=
  EReal.coe_strictMono.monotone.map_max
theorem coe_min (x y : ℝ) : ((min x y : ℝ) : EReal) = min (x : EReal) (y : EReal) :=
  EReal.coe_strictMono.monotone.map_min

theorem coordE_coe (a b : ℝ) : coordE (a : EReal) (b : EReal) = ((coordR a b : ℝ) : EReal) := by
  unfold coordE coordR
  rw [word_one, word_neg_one, word_7_5]
  simp only [EReal.coe_mul, EReal.coe_add, coe_max, coe_min]

theorem hatE_coe (u : ℝ) (g : BitVec 32) : hatE (u : EReal) g = ((hat u (g.toInt : ℝ) : ℝ) : EReal) := by
  unfold hatE hat
  rw [word_one, word_zero, abs_eq_max_neg]
  simp only [EReal.coe_sub, EReal.coe_neg, coe_max, coe_min]

/-- A finite sum of reals read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The integer side, cell by cell -/

theorem toInt_knot : ∀ g : Fin 16, (BitVec.ofNat 32 g.val).toInt = (g.val : ℤ) := by decide +kernel
theorem clip_word : ∀ n : Fin 16, IntOp.minsi 14#32 (IntOp.maxsi 0#32 (BitVec.ofNat 32 n.val)) = BitVec.ofNat 32 (min 14 n.val) := by
  decide +kernel
theorem wrap_left : ∀ k : Fin 15, min (wrapW 16#32 (BitVec.ofNat 32 k.val)).toInt.toNat (16 - 1) = k.val := by decide +kernel
theorem wrap_right : ∀ k : Fin 15,
    min (wrapW 16#32 (IntOp.addi (BitVec.ofNat 32 k.val) 1#32)).toInt.toNat (16 - 1) = k.val + 1 := by decide +kernel
/-- The normalisation and the clamp leave an index of an axis of 256 where it is. -/
theorem wrap_axis : ∀ o : Fin 256, min (wrapW 256#32 (BitVec.ofNat 32 o.val)).toInt.toNat (256 - 1) = o.val := by decide +kernel

/-- The cell index word of a real coordinate in [0, 15] is its cell. -/
theorem cellW_coe {u : ℝ} (h0 : 0 ≤ u) (h15 : u ≤ 15) : cellW (u : EReal) = BitVec.ofNat 32 (cell u) := by
  have hn0 : 0 ≤ ⌊u⌋ := Int.floor_nonneg.mpr h0
  have hn15 : ⌊u⌋ ≤ 15 := by
    have : ((⌊u⌋ : ℤ) : ℝ) ≤ 15 := (Int.floor_le u).trans h15
    exact_mod_cast this
  obtain ⟨n, hn⟩ := Int.eq_ofNat_of_zero_le hn0
  have hn16 : n < 16 := by omega
  have hfl : ⌊u⌋₊ = n := by rw [← Int.floor_toNat, hn]; rfl
  unfold cellW cell
  have e1 : Ideal.liftRound Int.floor (u : EReal) = (((n : ℤ) : ℝ) : EReal) := by
    show (((⌊u⌋ : ℤ) : ℝ) : EReal) = _
    rw [hn]
  rw [e1, Ideal.fptosi, Ideal.toIntClamped_coe, if_pos (by exact_mod_cast Int.natCast_nonneg n), Int.floor_intCast]
  have e2 : max (-((2 ^ (32 - 1) : ℕ) : ℤ)) (min (((2 ^ (32 - 1) : ℕ) : ℤ) - 1) (n : ℤ)) = (n : ℤ) := by
    norm_num; omega
  rw [e2, BitVec.ofInt_natCast, hfl]
  exact clip_word ⟨n, hn16⟩

/-! ## The identity -/

/-- THE TWO PROGRAMS' VALUES OF ONE EDGE AGREE, for real factors and real knot values: the sum over the sixteen knots
    of hat weight times knot value is the linear interpolation in the coordinate's cell. -/
theorem interp_eq (a b : ℝ) (s : Fin 16 → ℝ) :
    ∑ g : Fin 16, hatE (coordE (a : EReal) (b : EReal)) (BitVec.ofNat 32 g.val) * ((s g : ℝ) : EReal)
      = ((s (clampTo 16 (by decide) (wrapW 16#32 (cellW (coordE (a : EReal) (b : EReal))))) : ℝ) : EReal)
        + (coordE (a : EReal) (b : EReal) - (((cellW (coordE (a : EReal) (b : EReal))).toInt : ℝ) : EReal))
          * (((s (clampTo 16 (by decide) (wrapW 16#32 (IntOp.addi (cellW (coordE (a : EReal) (b : EReal))) 1#32))) : ℝ) : EReal)
            - ((s (clampTo 16 (by decide) (wrapW 16#32 (cellW (coordE (a : EReal) (b : EReal))))) : ℝ) : EReal)) := by
  have h0 := coordR_nonneg a b
  have h15 := coordR_le a b
  rw [coordE_coe, cellW_coe h0 h15]
  set u := coordR a b with hu
  have hk := cell_le u
  have hk15 : cell u < 15 := by omega
  have hk16 : cell u < 16 := by omega
  have eL : clampTo 16 (by decide) (wrapW 16#32 (BitVec.ofNat 32 (cell u))) = (⟨cell u, hk16⟩ : Fin 16) :=
    Fin.ext (wrap_left ⟨cell u, hk15⟩)
  have eR : clampTo 16 (by decide) (wrapW 16#32 (IntOp.addi (BitVec.ofNat 32 (cell u)) 1#32)) = (⟨cell u + 1, by omega⟩ : Fin 16) :=
    Fin.ext (wrap_right ⟨cell u, hk15⟩)
  rw [eL, eR, toInt_knot ⟨cell u, hk16⟩]
  have hsum : ∀ g : Fin 16, hatE (u : EReal) (BitVec.ofNat 32 g.val) * ((s g : ℝ) : EReal)
      = ((hat u (g.val : ℝ) * s g : ℝ) : EReal) := by
    intro g
    rw [hatE_coe, toInt_knot g, EReal.coe_mul]
    norm_cast
  rw [Finset.sum_congr rfl (fun g _ => hsum g), ← coe_sum, hat_sum h0 h15 s]
  push_cast
  rfl

end Spline

end
-- ==== Proof.LibOuter3.lean ====
/-
  The layout operations of an outer product of rows, read at explicit coordinates over any element type.

  `x[:, None, :] * w[None, :, :]` of an `[a, c]` matrix `x` and a `[b, c]` matrix `w` lowers to two shape casts that insert a
  unit axis (`[a, c] → [a, 1, c]`, `[b, c] → [1, b, c]`) and two broadcasts to `[a, b, c]`. Read at `(p, q, r)` the first
  operand is `x (p, r)` and the second is `w (q, r)`.
-/
import Idealize.ShloMosaic.Lib.ValueIdx
import Idealize.ShloMosaic.Lib.ValueLayout
import Idealize.ShloMosaic.Lib.Pipeline.Value

noncomputable section

namespace Idealize.ShloMosaic.Outer3

open Idealize.ShloMosaic Idealize.ShloMosaic.ValueIdx

variable {α : Type}

/-- An `[a, c]` array cast to `[a, 1, c]` reads, at `(p, u, r)`, the operand at `(p, r)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (r : Fin c) :
    shapeCast ⟨3, ![a, 1, c]⟩ x h (ix3 p u r) = x (ix2 p r) :=
  shapeCast_apply x h _ _ (by
    have hu : u.val = 0 := by omega
    rw [Shape.rowMajor_val_three, Shape.rowMajor_val_two]
    show p.val * c + r.val = (p.val * 1 + u.val) * c + r.val
    rw [hu, Nat.mul_one, Nat.add_zero])

/-- An `[a, 1, c]` array broadcast to `[a, b, c]` reads, at `(p, q, r)`, the operand at `(p, 0, r)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- A `[1, b, c]` array broadcast to `[a, b, c]` reads, at `(p, q, r)`, the operand at `(0, q, r)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- THE FIRST FACTOR: an `[a, c]` matrix given a unit middle axis and repeated along it reads `x (p, r)` at `(p, q, r)`. -/
theorem rows_apply {a b c : ℕ} (x : (⟨2, ![a, c]⟩ : Shape).Idx → α)
    (h1 : (⟨2, ![a, c]⟩ : Shape).ShapeCasts ⟨3, ![a, 1, c]⟩) (h2 : (⟨3, ![a, 1, c]⟩ : Shape).Broadcasts ⟨3, ![a, b, c]⟩)
    (p : Fin a) (q : Fin b) (r : Fin c) :
    broadcastTo ⟨3, ![a, b, c]⟩ (shapeCast ⟨3, ![a, 1, c]⟩ x h1) h2 (ix3 p q r) = x (ix2 p r) := by
  rw [broadcastTo_a1c_abc_apply, shapeCast_ac_a1c_apply]

/-- THE SECOND FACTOR: a `[b, c]` matrix given a unit leading axis and repeated along it reads `w (q, r)` at `(p, q, r)`. -/
theorem cols_apply {a b c : ℕ} (w : (⟨2, ![b, c]⟩ : Shape).Idx → α)
    (h1 : (⟨2, ![b, c]⟩ : Shape).ShapeCasts ⟨3, ![1, b, c]⟩) (h2 : (⟨3, ![1, b, c]⟩ : Shape).Broadcasts ⟨3, ![a, b, c]⟩)
    (p : Fin a) (q : Fin b) (r : Fin c) :
    broadcastTo ⟨3, ![a, b, c]⟩ (shapeCast ⟨3, ![1, b, c]⟩ w h1) h2 (ix3 p q r) = w (ix2 q r) := by
  rw [broadcastTo_1bc_abc_apply, shapeCast_ab_1ab_apply]

end Idealize.ShloMosaic.Outer3

end
-- ==== Proof.KerValue.lean ====
/-
  The kernel's stored block read at an entry, on the extended reals.

  Entry `(p, q)` of what a grid point stores is
    `(0 + ∑ g < 16, ∑ r < 256, hat_g (u (p, q, r)) · spline (g, q, r)) + bias (0, q)`
  with `u (p, q, r)` the grid coordinate of `x (p, r) · w (q, r)`: each trip adds one knot's row sums to the accumulator.
-/
import proofs.«143318_j14714557956115_2_alg».proof.Proof.KerPiece
import proofs.«143318_j14714557956115_2_alg».proof.Proof.HatE
import proofs.«143318_j14714557956115_2_alg».proof.Proof.LibOuter3
import Idealize.ShloMosaic.Lib.ValueIdx
import Idealize.ShloMosaic.Lib.ValueLayout
import Idealize.ShloMosaic.PureOps.Ideal.Laws

noncomputable section

namespace Cert.KernelIdeal.Body

open Idealize.ShloMosaic Idealize.ShloMosaic.TcCoe Idealize.SL.Sem Idealize.ShloMosaic.ValueIdx
open Cert.KernelIdeal Cert.KernelIdeal.Gen

/-- The loop makes sixteen trips. -/
theorem trips_eq : k0_t1_loop.trips = 16 := by decide +kernel

/-- The source index of a row sum: result index `(p, q)` with `r` on the summed axis. -/
theorem lift_ix (h : S32x128x256.Reduces [2] S32x128) (p : Fin 32) (q : Fin 128) (r : Fin 256) :
    h.lift (ix2 p q) r = ix3 p q r := by
  funext c
  refine Fin.ext ?_
  show h.liftVal (ix2 p q) r.val c = (ix3 p q r c).val
  match c with
  | ⟨0, _⟩ => rfl
  | ⟨1, _⟩ => rfl
  | ⟨2, _⟩ => rfl

/-- The induction variable of trip `k` is the word `k`. -/
theorem iv_eq (k : Fin k0_t1_loop.trips) : Scf.iv 0#32 1#32 k.val = BitVec.ofNat 32 k.val := by
  unfold Scf.iv
  rw [BitVec.zero_add, BitVec.mul_one]

/-- Slab `k` of the spline block at `(0, q, r)` is the block's entry `(k, q, r)`. -/
theorem slab_apply (x2 : Vec Ideal S16x128x256 .f32) (k : Fin k0_t1_loop.trips) (q : Fin 128) (r : Fin 256) :
    slab x2 k (ix3 (0 : Fin 1) q r) = x2 (ix3 (⟨k.val, trips_eq ▸ k.isLt⟩ : Fin 16) q r) := by
  unfold slab
  show x2 _ = x2 _
  refine congrArg x2 (funext fun a => Fin.ext ?_)
  show (k0_off1 k) a + 1 * (ix3 (0 : Fin 1) q r a).val = _
  rw [k0_off1_eq k]
  match a with
  | ⟨0, _⟩ => show k.val + 1 * 0 = k.val; omega
  | ⟨1, _⟩ => show 0 + 1 * q.val = q.val; omega
  | ⟨2, _⟩ => show 0 + 1 * r.val = r.val; omega

/-- ONE TRIP at entry `(p, q)`: the carried value plus knot `k`'s row sum. -/
theorem pay2_apply (x0 : Vec Ideal S32x256 .f32) (x1 : Vec Ideal S128x256 .f32) (k : Fin k0_t1_loop.trips)
    (acc : FVec Ideal S32x128 .f32) (v34 : Vec Ideal S1x128x256 .f32) (p : Fin 32) (q : Fin 128) :
    k0_pay2 x0 x1 k acc v34 (ix2 p q)
      = acc (ix2 p q) + ∑ r : Fin 256, Spline.hatE (Spline.coordE (x0 (ix2 p r)) (x1 (ix2 q r))) (BitVec.ofNat 32 k.val)
          * v34 (ix3 (0 : Fin 1) q r) := by
  unfold k0_pay2
  refine congrArg (acc (ix2 p q) + ·) ?_
  refine (Ideal.multiReduction_add_single _ _ _ _ _ _).trans ?_
  refine Finset.sum_congr rfl fun (r : Fin 256) _ => ?_
  have hl : reduces_S32x128x256_S32x128.lift (ix2 p q) r = ix3 p q r := lift_ix _ p q r
  rw [hl]
  have e1 := Outer3.rows_apply (b := 128) x0 shapeCasts_S32x256_S32x1x256 broadcasts_S32x1x256_S32x128x256 p q r
  have e2 := Outer3.cols_apply (a := 32) x1 shapeCasts_S128x256_S1x128x256 broadcasts_S1x128x256_S32x128x256 p q r
  have e3 : broadcastTo S32x128x256 (shapeCast S1x128x256 (shapeCast S128x256 v34 shapeCasts_S1x128x256_S128x256)
      shapeCasts_S128x256_S1x128x256) broadcasts_S1x128x256_S32x128x256 (ix3 p q r) = v34 (ix3 (0 : Fin 1) q r) := by
    rw [Outer3.cols_apply, shapeCast_1ab_ab_apply]
  rw [← iv_eq k, ← e1, ← e2, ← e3]
  rfl

/-- The bias row added at entry `(p, q)`. -/
theorem pay3_apply (v17 : FVec Ideal S32x128 .f32) (v18 : Vec Ideal S1x128 .f32) (p : Fin 32) (q : Fin 128) :
    k0_pay3 v17 v18 (ix2 p q) = v17 (ix2 p q) + v18 (ix2 (0 : Fin 1) q) := by
  unfold k0_pay3
  refine congrArg (v17 (ix2 p q) + ·) ?_
  rw [shapeCast_self, broadcastTo_1b_ab_apply]

/-- Knot `g`'s row sum at entry `(p, q)`. -/
def knotSum (x0 : S32x256.Idx → EReal) (x1 : S128x256.Idx → EReal) (x2 : S16x128x256.Idx → EReal) (p : Fin 32) (q : Fin 128)
    (g : Fin 16) : EReal :=
  ∑ r : Fin 256, Spline.hatE (Spline.coordE (x0 (ix2 p r)) (x1 (ix2 q r))) (BitVec.ofNat 32 g.val) * x2 (ix3 g q r)

/-- The accumulator before trip `n` at entry `(p, q)`: zero plus the first `n` knots' row sums. -/
theorem accAt_apply (x0 : Vec Ideal S32x256 .f32) (x1 : Vec Ideal S128x256 .f32) (x2 : Vec Ideal S16x128x256 .f32)
    (n : ℕ) (hn : n ≤ 16) (p : Fin 32) (q : Fin 128) :
    accAt x0 x1 x2 n (ix2 p q) = Ideal.ofBits .f32 0x00000000#32 + ∑ g : Fin n, knotSum x0 x1 x2 p q (g.castLE hn) := by
  induction n with
  | zero => simp only [Finset.univ_eq_empty, Finset.sum_empty, add_zero]; rfl
  | succ n ih =>
    have hlt : n < k0_t1_loop.trips := by rw [trips_eq]; omega
    have hs : ∑ g : Fin (n + 1), knotSum x0 x1 x2 p q (g.castLE hn)
        = ∑ g : Fin n, knotSum x0 x1 x2 p q (g.castLE (by omega)) + knotSum x0 x1 x2 p q ⟨n, by omega⟩ := by
      rw [Fin.sum_univ_castSucc]; rfl
    rw [accAt, dif_pos hlt, pay2_apply, ih (by omega), hs, add_assoc]
    refine congrArg (_ + ·) (congrArg (_ + ·) ?_)
    unfold knotSum
    refine Finset.sum_congr rfl fun r _ => ?_
    rw [slab_apply]

/-- THE STORED BLOCK AT ENTRY `(p, q)`. -/
theorem stored_apply (x0 : Vec Ideal S32x256 .f32) (x1 : Vec Ideal S128x256 .f32) (x2 : Vec Ideal S16x128x256 .f32)
    (x3 : Vec Ideal S1x128 .f32) (p : Fin 32) (q : Fin 128) :
    k0_pay3 (accAt x0 x1 x2 k0_t1_loop.trips) x3 (ix2 p q)
      = (Ideal.ofBits .f32 0x00000000#32 + ∑ g : Fin 16, knotSum x0 x1 x2 p q g) + x3 (ix2 (0 : Fin 1) q) := by
  rw [pay3_apply, trips_eq, accAt_apply x0 x1 x2 16 le_rfl]
  rfl

end Cert.KernelIdeal.Body

end
-- ==== Proof.KerArray.lean ====
/-
  The kernel's output array after the run, as ONE function of the four arrays the region stages.

  The grid has 2 × 32 points; point `(o, b)` reads rows `32 b …` of `x`, rows `128 o …` of `W`, the slabs `[·, 128 o …, ·]` of the
  transposed spline table and columns `128 o …` of the bias row, and writes the output block at rows `32 b …`, columns
  `128 o …`. The output blocks tile the `[1024, 256]` array, and entry `(b, o)` of it is
    `(0 + ∑ g < 16, ∑ r < 256, hat_g (u (b, o, r)) · T (g, o, r)) + B (0, o)`.
-/
import proofs.«143318_j14714557956115_2_alg».proof.Proof.KerValue
import Idealize.ShloMosaic.Lib.Pipeline.Value
import Idealize.ShloMosaic.Lib.StableHlo.Run

noncomputable section

namespace Cert.KernelIdeal.Array

open Idealize.ShloMosaic Idealize.ShloMosaic.TcCoe Idealize.SL.Sem Idealize.ShloMosaic.ValueIdx Idealize.ShloMosaic.StableHlo
open Cert.KernelIdeal Cert.KernelIdeal.Gen Cert.KernelIdeal.Body
open Idealize.ShloMosaic.Pipeline (Dat)

/-- Entry `(b, o)` of the output as a function of the staged arrays. -/
def entry (X : S1024x256.Idx → EReal) (W : S256x256.Idx → EReal) (T : S16x256x256.Idx → EReal) (B : S1x256.Idx → EReal)
    (b : Fin 1024) (o : Fin 256) : EReal :=
  (Ideal.ofBits .f32 0x00000000#32 + ∑ g : Fin 16, ∑ r : Fin 256,
      Spline.hatE (Spline.coordE (X (ix2 b r)) (W (ix2 o r))) (BitVec.ofNat 32 g.val) * T (ix3 g o r))
    + B (ix2 (0 : Fin 1) o)

/-- The output array as a function of the staged arrays. -/
def G (X : S1024x256.Idx → EReal) (W : S256x256.Idx → EReal) (T : S16x256x256.Idx → EReal) (B : S1x256.Idx → EReal) :
    S1024x256.Idx → EReal :=
  fun i => entry X W T B (i 0) (i 1)

variable (m : (ℓ : Loc nD τ sig) → Buf (Elt Ideal) ℓ) (ρ : Dev nD → PrngReg)

/-- The printed index maps, decided over the 64 grid points: every input window's block index in terms of the output
    window's, and the output's block indices in their ranges. -/
theorem idx_facts : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 3) = 0 ∧ win0_2.index t (1 : Fin 3) = win0_4.index t (1 : Fin 2) ∧ win0_2.index t (2 : Fin 3) = 0
    ∧ win0_3.index t (0 : Fin 2) = 0 ∧ win0_3.index t (1 : Fin 2) = win0_4.index t (1 : Fin 2)
    ∧ win0_4.index t (0 : Fin 2) ≤ 31 ∧ win0_4.index t (1 : Fin 2) ≤ 1 :=
  (by decide +kernel : ∀ t : Fin grid0.N, _)

/-- Every output block is some point's. -/
theorem idx_onto : ∀ (q0 : Fin 32) (q1 : Fin 2), ∃ t : Fin cfg0.N, win0_4.index t = ![q0.val, q1.val] :=
  (by decide +kernel : ∀ (q0 : Fin 32) (q1 : Fin 2), ∃ t : Fin grid0.N, win0_4.index t = ![q0.val, q1.val])

/-- WHAT POINT `t` WRITES BACK is block `t` of `G` of the arrays as the region finds them. -/
theorem flushed_eq (c : Dev nD) (t : Fin cfg0.N) :
    (dats m 0 c).flushed 4 t
      = ((cfg0.win 4).blk t).view.read (Elt Ideal) (G (V m c main_arg0) (V m c main_arg1) (V m c main_v1) (V m c main_v0)) := by
  have h1 := Cert.KernelIdeal.Value.flushed4_A m c t
  rw [out_eq c (grid0.coords t) (ms0_0 t) (hs0_0 t) (ms0_1 t) (hs0_1 t) (ms0_2 t) (hs0_2 t) (ms0_3 t) (hs0_3 t) (ms0_4 t) (hs0_4 t)
    (iblk m c 0 t) (iblk m c 1 t) (iblk m c 2 t) (iblk m c 3 t)] at h1
  rw [h1]
  obtain ⟨e00, e01, e10, e11, e20, e21, e22, e30, e31, b0, b1⟩ := idx_facts t
  funext j
  obtain ⟨p, q, rfl⟩ : ∃ (p : Fin 32) (q : Fin 128), j = ix2 p q := ⟨j 0, j 1, eq_ix2 j⟩
  show k0_pay3 (accAt (iblk m c 0 t) (iblk m c 1 t) (iblk m c 2 t) k0_t1_loop.trips) (iblk m c 3 t) (ix2 p q)
    = G (V m c main_arg0) (V m c main_arg1) (V m c main_v1) (V m c main_v0) (((cfg0.win 4).blk t).view.emb (ix2 p q))
  refine (stored_apply (iblk m c 0 t) (iblk m c 1 t) (iblk m c 2 t) (iblk m c 3 t) p q).trans ?_
  unfold G entry knotSum
  have hb : iblk m c 3 t (ix2 (0 : Fin 1) q)
      = V m c main_v0 (ix2 (0 : Fin 1) ((((cfg0.win 4).blk t).view.emb (ix2 p q)) 1)) := by
    show V m c main_v0 (((cfg0.win 3).blk t).view.emb (ix2 (0 : Fin 1) q)) = _
    refine congrArg (V m c main_v0) (funext fun a => Fin.ext ?_)
    match a with
    | ⟨0, _⟩ => show win0_3.index t (0 : Fin 2) * 1 + 1 * 0 = 0; omega
    | ⟨1, _⟩ => show win0_3.index t (1 : Fin 2) * 128 + 1 * q.val = win0_4.index t (1 : Fin 2) * 128 + 1 * q.val; omega
  refine congrArg₂ (· + ·) (congrArg (_ + ·) (Finset.sum_congr rfl fun g _ => Finset.sum_congr rfl fun r _ => ?_)) hb
  have a0 : iblk m c 0 t (ix2 p r)
      = V m c main_arg0 (ix2 ((((cfg0.win 4).blk t).view.emb (ix2 p q)) 0) r) := by
    show V m c main_arg0 (((cfg0.win 0).blk t).view.emb (ix2 p r)) = _
    refine congrArg (V m c main_arg0) (funext fun a => Fin.ext ?_)
    match a with
    | ⟨0, _⟩ => show win0_0.index t (0 : Fin 2) * 32 + 1 * p.val = win0_4.index t (0 : Fin 2) * 32 + 1 * p.val; omega
    | ⟨1, _⟩ => show win0_0.index t (1 : Fin 2) * 256 + 1 * r.val = r.val; omega
  have a1 : iblk m c 1 t (ix2 q r)
      = V m c main_arg1 (ix2 ((((cfg0.win 4).blk t).view.emb (ix2 p q)) 1) r) := by
    show V m c main_arg1 (((cfg0.win 1).blk t).view.emb (ix2 q r)) = _
    refine congrArg (V m c main_arg1) (funext fun a => Fin.ext ?_)
    match a with
    | ⟨0, _⟩ => show win0_1.index t (0 : Fin 2) * 128 + 1 * q.val = win0_4.index t (1 : Fin 2) * 128 + 1 * q.val; omega
    | ⟨1, _⟩ => show win0_1.index t (1 : Fin 2) * 256 + 1 * r.val = r.val; omega
  have a2 : iblk m c 2 t (ix3 g q r)
      = V m c main_v1 (ix3 g ((((cfg0.win 4).blk t).view.emb (ix2 p q)) 1) r) := by
    show V m c main_v1 (((cfg0.win 2).blk t).view.emb (ix3 g q r)) = _
    refine congrArg (V m c main_v1) (funext fun a => Fin.ext ?_)
    match a with
    | ⟨0, _⟩ => show win0_2.index t (0 : Fin 3) * 16 + 1 * g.val = g.val; omega
    | ⟨1, _⟩ => show win0_2.index t (1 : Fin 3) * 128 + 1 * q.val = win0_4.index t (1 : Fin 2) * 128 + 1 * q.val; omega
    | ⟨2, _⟩ => show win0_2.index t (2 : Fin 3) * 256 + 1 * r.val = r.val; omega
  rw [a0, a1, a2]

/-- An index of the array is in point `t`'s block iff each coordinate is in the block's range on its axis. -/
theorem mem_blk (t : Fin cfg0.N) (i : S1024x256.Idx) :
    i ∈ ((cfg0.win 4).blk t).view.set ↔ ∀ a : Fin 2, win0_4.index t a * S32x128.size a ≤ (i a).val
      ∧ (i a).val < win0_4.index t a * S32x128.size a + S32x128.size a := by
  show i ∈ ((View.whole main_v2).slice (win0_4.rect t)).set ↔ _
  rw [View.set_slice_whole, Rect.mem_set_unit]
  exact Iff.rfl

/-- The output blocks cover the array. -/
theorem cover (i : S1024x256.Idx) : ∃ t : Fin cfg0.N, (cfg0.win 4).flush t = true ∧ i ∈ ((cfg0.win 4).blk t).view.set := by
  have hi0 : (i 0).val < 1024 := (i 0).isLt
  have hi1 : (i 1).val < 256 := (i 1).isLt
  obtain ⟨t, ht⟩ := idx_onto ⟨(i 0).val / 32, by omega⟩ ⟨(i 1).val / 128, by omega⟩
  have q0 : win0_4.index t (0 : Fin 2) = (i 0).val / 32 := congrFun ht 0
  have q1 : win0_4.index t (1 : Fin 2) = (i 1).val / 128 := congrFun ht 1
  refine ⟨t, flush0_4 t, ?_⟩
  rw [mem_blk]
  intro a
  match a with
  | ⟨0, _⟩ => show win0_4.index t (0 : Fin 2) * 32 ≤ (i 0).val ∧ (i 0).val < win0_4.index t (0 : Fin 2) * 32 + 32; omega
  | ⟨1, _⟩ => show win0_4.index t (1 : Fin 2) * 128 ≤ (i 1).val ∧ (i 1).val < win0_4.index t (1 : Fin 2) * 128 + 128; omega

/-- The bias row as the region finds it: the host's reshape of the bias vector. -/
theorem V_bias (c : Dev nD) : (V m c main_v0 : S1x256.Idx → EReal)
    = shapeCast S1x256 (m ((c : Thread nD τ).loc main_arg3)) shapeCasts_S256_S1x256 := by
  dsimp only [Gen.V, Gen.hostOps0]; after_results; rfl

/-- The spline table as the region finds it: the host's transpose, knot axis first. -/
theorem V_spline (c : Dev nD) : (V m c main_v1 : S16x256x256.Idx → EReal)
    = transpose S16x256x256 [2, 0, 1] (m ((c : Thread nD τ).loc main_arg2)) transposes_S256x256x16_S16x256x256_2_0_1 := by
  dsimp only [Gen.V, Gen.hostOps0]; after_results

/-- THE OUTPUT ARRAY AFTER THE RUN. -/
theorem final (c : Dev nD) : (dats m 0 c).arrAt 4 cfg0.N
    = G (m ((c : Thread nD τ).loc main_arg0)) (m ((c : Thread nD τ).loc main_arg1))
        (transpose S16x256x256 [2, 0, 1] (m ((c : Thread nD τ).loc main_arg2)) transposes_S256x256x16_S16x256x256_2_0_1)
        (shapeCast S1x256 (m ((c : Thread nD τ).loc main_arg3)) shapeCasts_S256_S1x256) := by
  rw [← V_main_arg0 m c, ← V_main_arg1 m c, ← V_spline m c, ← V_bias m c]
  exact (dats m 0 c).arrAt_eq_of_cover 4 _ (fun t _ => flushed_eq m c t) cover

end Cert.KernelIdeal.Array

end
-- ==== Proof.RefValue.lean ====
/-
  The reference's result read at an entry, on the extended reals.

  Entry `(b, o)` of the reference is `(0 + ∑ r < 256, y (b, o, r)) + bias o`, where `y (b, o, r)` interpolates the knot values
  `spline (o, r, ·)` linearly at the grid coordinate `u` of `x (b, r) · W (o, r)`: with `k` the cell index word of `u`,
  `y = s k + (u - k) · (s (k + 1) - s k)`, the two knot values fetched by a gather whose start indices are
  `(o, r, k)` and `(o, r, k + 1)`, each passed through the index normalisation `i < 0 ? i + n : i` and the gather's clamp.
-/
import proofs.«143318_j14714557956115_2_alg».proof.Proof.Gen.ReferenceIdeal.Read
import proofs.«143318_j14714557956115_2_alg».proof.Proof.HatE
import proofs.«143318_j14714557956115_2_alg».proof.Proof.LibGatherPoint
import Idealize.ShloMosaic.Lib.ValueIdx
import Idealize.ShloMosaic.Lib.Pipeline.Value

noncomputable section

namespace Cert.ReferenceIdeal.RefValue

open Idealize.ShloMosaic Idealize.ShloMosaic.ValueIdx Idealize.ShloMosaic.GatherPoint
open Cert.ReferenceIdeal Cert.ReferenceIdeal.Gen Cert.ReferenceIdeal.Read Spline

variable (x0 : FVec Ideal S1024x256 .f32) (x1 : FVec Ideal S256x256 .f32) (x2 : FVec Ideal S256x256x16 .f32)
  (x3 : FVec Ideal S256 .f32)

/-- The grid coordinate at `(b, o, r)`. -/
theorem coord_apply (b : Fin 1024) (o : Fin 256) (r : Fin 256) :
    val_main_v9 (F := Ideal) x0 x1 (ix3 b o r) = coordE (x0 (ix2 b r)) (x1 (ix2 o r)) := by
  have i0 : idx_main_v0 (idx_main_v2 (ix3 b o r)) = ix2 b r := by
    funext a; match a with | ⟨0, _⟩ => rfl | ⟨1, _⟩ => rfl
  have i1 : idx_main_v1 (idx_main_v3 (ix3 b o r)) = ix2 o r := by
    funext a; match a with | ⟨0, _⟩ => rfl | ⟨1, _⟩ => rfl
  simp only [val_main_v9_apply, val_main_v7_apply, val_main_v5_apply, val_main_call0_v4_apply, val_main_call0_v3_apply,
    val_main_cst_0_apply, val_main_call0_v2_apply, val_main_call0_v1_apply, val_main_call0_v0_apply, val_main_cst_apply,
    val_main_v4_apply, val_main_v2_apply, val_main_v0_apply, val_main_v3_apply, val_main_v1_apply, val_main_v6_apply,
    val_main_cst_1_apply, val_main_v8_apply, val_main_cst_2_apply, i0, i1]
  rfl

/-- The cell index word at `(b, o, r)`. -/
theorem cell_apply (b : Fin 1024) (o : Fin 256) (r : Fin 256) :
    val_main_v12 (F := Ideal) x0 x1 (ix3 b o r) = cellW (coordE (x0 (ix2 b r)) (x1 (ix2 o r))) := by
  simp only [val_main_v12_apply, val_main_call1_v4_apply, val_main_call1_v3_apply, val_main_c_3_apply,
    val_main_call1_v2_apply, val_main_call1_v1_apply, val_main_call1_v0_apply, val_main_c_apply, val_main_v11_apply,
    val_main_v10_apply, coord_apply]
  rfl

/-- The fractional offset at `(b, o, r)`. -/
theorem frac_apply (b : Fin 1024) (o : Fin 256) (r : Fin 256) :
    val_main_v14 (F := Ideal) x0 x1 (ix3 b o r)
      = coordE (x0 (ix2 b r)) (x1 (ix2 o r)) - (((cellW (coordE (x0 (ix2 b r)) (x1 (ix2 o r)))).toInt : ℝ) : EReal) := by
  simp only [val_main_v14_apply, val_main_v13_apply, coord_apply, cell_apply]
  rfl

/-! ## The gathers' start indices -/

/-- The output-feature component of both start-index arrays: the normalised iota. -/
theorem axis_o (y : S1024x256x256.Idx) :
    val_main_v34 (F := Ideal) y = wrapW 256#32 (BitVec.ofNat 32 (y 1).val) := by
  simp only [val_main_v34_apply, val_main_v23_apply, val_main_v20_apply, val_main_v22_apply, val_main_v16_apply,
    val_main_v15_apply, val_main_v19_apply, val_main_c_4_apply, val_main_v21_apply, val_main_c_5_apply]
  rfl
theorem axis_o' (y : S1024x256x256.Idx) :
    val_main_v58 (F := Ideal) y = wrapW 256#32 (BitVec.ofNat 32 (y 1).val) := by
  simp only [val_main_v58_apply, val_main_v47_apply, val_main_v44_apply, val_main_v46_apply, val_main_v16_apply,
    val_main_v15_apply, val_main_v43_apply, val_main_c_11_apply, val_main_v45_apply, val_main_c_12_apply]
  rfl

/-- The input-feature component: the normalised iota. -/
theorem axis_r (y : S1024x256x256.Idx) :
    val_main_v35 (F := Ideal) y = wrapW 256#32 (BitVec.ofNat 32 (y 2).val) := by
  simp only [val_main_v35_apply, val_main_v28_apply, val_main_v25_apply, val_main_v27_apply, val_main_v18_apply,
    val_main_v17_apply, val_main_v24_apply, val_main_c_6_apply, val_main_v26_apply, val_main_c_7_apply]
  rfl
theorem axis_r' (y : S1024x256x256.Idx) :
    val_main_v59 (F := Ideal) y = wrapW 256#32 (BitVec.ofNat 32 (y 2).val) := by
  simp only [val_main_v59_apply, val_main_v52_apply, val_main_v49_apply, val_main_v51_apply, val_main_v18_apply,
    val_main_v17_apply, val_main_v48_apply, val_main_c_13_apply, val_main_v50_apply, val_main_c_14_apply]
  rfl

/-- The knot component of the left gather: the normalised cell index, -/
theorem axis_k (b : Fin 1024) (o : Fin 256) (r : Fin 256) :
    val_main_v33 (F := Ideal) x0 x1 (ix3 b o r) = wrapW 16#32 (cellW (coordE (x0 (ix2 b r)) (x1 (ix2 o r)))) := by
  simp only [val_main_v33_apply, val_main_v30_apply, val_main_v32_apply, val_main_v29_apply, val_main_c_8_apply,
    val_main_v31_apply, val_main_c_9_apply, cell_apply]
  rfl
/-- and of the right gather: the normalised cell index plus one. -/
theorem axis_k' (b : Fin 1024) (o : Fin 256) (r : Fin 256) :
    val_main_v57 (F := Ideal) x0 x1 (ix3 b o r)
      = wrapW 16#32 (IntOp.addi (cellW (coordE (x0 (ix2 b r)) (x1 (ix2 o r)))) 1#32) := by
  simp only [val_main_v57_apply, val_main_v54_apply, val_main_v56_apply, val_main_v53_apply, val_main_c_15_apply,
    val_main_v55_apply, val_main_c_16_apply, val_main_v42_apply, val_main_v41_apply, val_main_c_10_apply, cell_apply]
  rfl

/-- A `[P, Q, R, 1]` piece of a join along the last axis sits over the `[P, Q, R]` array it was made from. -/
theorem unit_idx36 (y : S1024x256x256.Idx) (u : Fin 1) : idx_main_v36 (ix4 (y 0) (y 1) (y 2) u) = y := by
  funext a; match a with | ⟨0, _⟩ => rfl | ⟨1, _⟩ => rfl | ⟨2, _⟩ => rfl
theorem unit_idx37 (y : S1024x256x256.Idx) (u : Fin 1) : idx_main_v37 (ix4 (y 0) (y 1) (y 2) u) = y := by
  funext a; match a with | ⟨0, _⟩ => rfl | ⟨1, _⟩ => rfl | ⟨2, _⟩ => rfl
theorem unit_idx38 (y : S1024x256x256.Idx) (u : Fin 1) : idx_main_v38 (ix4 (y 0) (y 1) (y 2) u) = y := by
  funext a; match a with | ⟨0, _⟩ => rfl | ⟨1, _⟩ => rfl | ⟨2, _⟩ => rfl
theorem unit_idx60 (y : S1024x256x256.Idx) (u : Fin 1) : idx_main_v60 (ix4 (y 0) (y 1) (y 2) u) = y := by
  funext a; match a with | ⟨0, _⟩ => rfl | ⟨1, _⟩ => rfl | ⟨2, _⟩ => rfl
theorem unit_idx61 (y : S1024x256x256.Idx) (u : Fin 1) : idx_main_v61 (ix4 (y 0) (y 1) (y 2) u) = y := by
  funext a; match a with | ⟨0, _⟩ => rfl | ⟨1, _⟩ => rfl | ⟨2, _⟩ => rfl
theorem unit_idx62 (y : S1024x256x256.Idx) (u : Fin 1) : idx_main_v62 (ix4 (y 0) (y 1) (y 2) u) = y := by
  funext a; match a with | ⟨0, _⟩ => rfl | ⟨1, _⟩ => rfl | ⟨2, _⟩ => rfl

/-- A join of three `[P, Q, R, 1]` pieces along the last axis, read at `(p, q, r, c)`: piece `c` at `(p, q, r, 0)`. -/
theorem join3_apply (u0 u1 u2 : S1024x256x256x1.Idx → BitVec 32)
    (h : Shape.Concatenates [S1024x256x256x1, S1024x256x256x1, S1024x256x256x1] S1024x256x256x3 3) (y : S1024x256x256.Idx) :
    concatenate S1024x256x256x3 3 [⟨S1024x256x256x1, u0⟩, ⟨S1024x256x256x1, u1⟩, ⟨S1024x256x256x1, u2⟩] h (pointIdx y 0)
        = u0 (ix4 (y 0) (y 1) (y 2) (0 : Fin 1))
    ∧ concatenate S1024x256x256x3 3 [⟨S1024x256x256x1, u0⟩, ⟨S1024x256x256x1, u1⟩, ⟨S1024x256x256x1, u2⟩] h (pointIdx y 1)
        = u1 (ix4 (y 0) (y 1) (y 2) (0 : Fin 1))
    ∧ concatenate S1024x256x256x3 3 [⟨S1024x256x256x1, u0⟩, ⟨S1024x256x256x1, u1⟩, ⟨S1024x256x256x1, u2⟩] h (pointIdx y 2)
        = u2 (ix4 (y 0) (y 1) (y 2) (0 : Fin 1)) := by
  have hi : ∀ (c : Fin 3) (b : Fin S1024x256x256x1.rank), b.cast (rfl : S1024x256x256x1.rank = S1024x256x256x3.rank) ≠ (3 : Fin 4) →
      (ix4 (y 0) (y 1) (y 2) (0 : Fin 1) b).val = (pointIdx y c (b.cast rfl)).val := by
    intro c b hb
    match b with
    | ⟨0, _⟩ => rfl
    | ⟨1, _⟩ => rfl
    | ⟨2, _⟩ => rfl
    | ⟨3, _⟩ => exact absurd rfl hb
  refine ⟨?_, ?_, ?_⟩
  · exact concatenate_apply_piece (t := S1024x256x256x3) (3 : Fin 4) [⟨S1024x256x256x1, u0⟩, ⟨S1024x256x256x1, u1⟩, ⟨S1024x256x256x1, u2⟩] h (pointIdx y 0)
      0 (by show (0 : ℕ) < 3; omega) S1024x256x256x1 u0 rfl rfl 0 rfl (ix4 (y 0) (y 1) (y 2) (0 : Fin 1)) (hi 0) rfl
  · exact concatenate_apply_piece (t := S1024x256x256x3) (3 : Fin 4) [⟨S1024x256x256x1, u0⟩, ⟨S1024x256x256x1, u1⟩, ⟨S1024x256x256x1, u2⟩] h (pointIdx y 1)
      1 (by show (1 : ℕ) < 3; omega) S1024x256x256x1 u1 rfl rfl 1 rfl (ix4 (y 0) (y 1) (y 2) (0 : Fin 1)) (hi 1) rfl
  · exact concatenate_apply_piece (t := S1024x256x256x3) (3 : Fin 4) [⟨S1024x256x256x1, u0⟩, ⟨S1024x256x256x1, u1⟩, ⟨S1024x256x256x1, u2⟩] h (pointIdx y 2)
      2 (by show (2 : ℕ) < 3; omega) S1024x256x256x1 u2 rfl rfl 2 rfl (ix4 (y 0) (y 1) (y 2) (0 : Fin 1)) (hi 2) rfl

/-- The left gather's joined start indices, component by component. -/
theorem join_left (y : S1024x256x256.Idx) :
    val_main_v39 (F := Ideal) x0 x1 (pointIdx y 0) = val_main_v34 (F := Ideal) y
    ∧ val_main_v39 (F := Ideal) x0 x1 (pointIdx y 1) = val_main_v35 (F := Ideal) y
    ∧ val_main_v39 (F := Ideal) x0 x1 (pointIdx y 2) = val_main_v33 (F := Ideal) x0 x1 y := by
  obtain ⟨h0, h1, h2⟩ := join3_apply (val_main_v36 (F := Ideal)) (val_main_v37 (F := Ideal)) (val_main_v38 (F := Ideal) x0 x1)
    concatenates_S1024x256x256x1_S1024x256x256x1_S1024x256x256x1_S1024x256x256x3_d3 y
  unfold val_main_v39
  refine ⟨h0.trans ?_, h1.trans ?_, h2.trans ?_⟩
  · rw [val_main_v36_apply, unit_idx36]
  · rw [val_main_v37_apply, unit_idx37]
  · rw [val_main_v38_apply, unit_idx38]

/-- The right gather's joined start indices, component by component. -/
theorem join_right (y : S1024x256x256.Idx) :
    val_main_v63 (F := Ideal) x0 x1 (pointIdx y 0) = val_main_v58 (F := Ideal) y
    ∧ val_main_v63 (F := Ideal) x0 x1 (pointIdx y 1) = val_main_v59 (F := Ideal) y
    ∧ val_main_v63 (F := Ideal) x0 x1 (pointIdx y 2) = val_main_v57 (F := Ideal) x0 x1 y := by
  obtain ⟨h0, h1, h2⟩ := join3_apply (val_main_v60 (F := Ideal)) (val_main_v61 (F := Ideal)) (val_main_v62 (F := Ideal) x0 x1)
    concatenates_S1024x256x256x1_S1024x256x256x1_S1024x256x256x1_S1024x256x256x3_d3 y
  unfold val_main_v63
  refine ⟨h0.trans ?_, h1.trans ?_, h2.trans ?_⟩
  · rw [val_main_v60_apply, unit_idx60]
  · rw [val_main_v61_apply, unit_idx61]
  · rw [val_main_v62_apply, unit_idx62]

/-! ## The two knot values -/

/-- The left knot value: the spline table at `(o, r, k)`, `k` the cell index after normalisation and clamp. -/
theorem knot_left (b : Fin 1024) (o : Fin 256) (r : Fin 256) :
    val_main_v40 (F := Ideal) x0 x1 x2 (ix3 b o r)
      = x2 (ix3 o r (clampTo 16 (by decide) (wrapW 16#32 (cellW (coordE (x0 (ix2 b r)) (x1 (ix2 o r))))))) := by
  unfold val_main_v40
  refine (gather_point_apply (A := 256) (B := 256) (C := 16) (P := 1024) (Q := 256) (R := 256) (by decide) (by decide) (by decide)
    gather_S256x256x16_S1024x256x256x3_S1024x256x256_n_012_n_n_012_3_111_wf x2 (val_main_v39 (F := Ideal) x0 x1) (ix3 b o r)).trans ?_
  obtain ⟨h0, h1, h2⟩ := join_left x0 x1 (ix3 b o r)
  rw [h0, h1, h2, axis_o, axis_r, axis_k]
  refine congrArg x2 (funext fun a => Fin.ext ?_)
  match a with
  | ⟨0, _⟩ => exact wrap_axis o
  | ⟨1, _⟩ => exact wrap_axis r
  | ⟨2, _⟩ => rfl

/-- The right knot value: the spline table at `(o, r, k + 1)`. -/
theorem knot_right (b : Fin 1024) (o : Fin 256) (r : Fin 256) :
    val_main_v64 (F := Ideal) x0 x1 x2 (ix3 b o r)
      = x2 (ix3 o r (clampTo 16 (by decide)
          (wrapW 16#32 (IntOp.addi (cellW (coordE (x0 (ix2 b r)) (x1 (ix2 o r)))) 1#32)))) := by
  unfold val_main_v64
  refine (gather_point_apply (A := 256) (B := 256) (C := 16) (P := 1024) (Q := 256) (R := 256) (by decide) (by decide) (by decide)
    gather_S256x256x16_S1024x256x256x3_S1024x256x256_n_012_n_n_012_3_111_wf x2 (val_main_v63 (F := Ideal) x0 x1) (ix3 b o r)).trans ?_
  obtain ⟨h0, h1, h2⟩ := join_right x0 x1 (ix3 b o r)
  rw [h0, h1, h2, axis_o', axis_r', axis_k']
  refine congrArg x2 (funext fun a => Fin.ext ?_)
  match a with
  | ⟨0, _⟩ => exact wrap_axis o
  | ⟨1, _⟩ => exact wrap_axis r
  | ⟨2, _⟩ => rfl

/-! ## The entry -/

/-- One edge's interpolated value, as the reference computes it. -/
def edge (a w : EReal) (s : Fin 16 → EReal) : EReal :=
  s (clampTo 16 (by decide) (wrapW 16#32 (cellW (coordE a w))))
    + (coordE a w - (((cellW (coordE a w)).toInt : ℝ) : EReal))
      * (s (clampTo 16 (by decide) (wrapW 16#32 (IntOp.addi (cellW (coordE a w)) 1#32)))
        - s (clampTo 16 (by decide) (wrapW 16#32 (cellW (coordE a w)))))

/-- THE REFERENCE AT ENTRY `(b, o)`. -/
theorem result_apply (b : Fin 1024) (o : Fin 256) :
    val_main_v71 (F := Ideal) x0 x1 x2 x3 (ix2 b o)
      = (Ideal.ofBits .f32 0x00000000#32 + ∑ r : Fin 256, edge (x0 (ix2 b r)) (x1 (ix2 o r)) (fun g => x2 (ix3 o r g)))
        + x3 (ix1 o) := by
  have ib : idx_main_v69 (idx_main_v70 (ix2 b o)) = ix1 o := by
    funext a; match a with | ⟨0, _⟩ => rfl
  rw [val_main_v71_apply, val_main_v68_apply, val_main_v70_apply, val_main_v69_apply, val_main_cst_17_apply, ib]
  refine congrArg₂ (· + ·) (congrArg (_ + ·) (Finset.sum_congr rfl fun r _ => ?_)) rfl
  have ir : idx_main_v68 (ix2 b o) r = ix3 b o r := by
    funext a; match a with | ⟨0, _⟩ => rfl | ⟨1, _⟩ => rfl | ⟨2, _⟩ => rfl
  rw [ir, val_main_v67_apply, val_main_v66_apply, val_main_v65_apply, knot_left, knot_right, frac_apply]
  rfl

end Cert.ReferenceIdeal.RefValue

end
-- ==== Proof.Bridge.lean ====
/-
  The kernel's output array and the reference's result are one function of the inputs, when every input entry is real.

  Entry `(b, o)` of the kernel is `(0 + ∑ g, ∑ r, hat_g (u (b, o, r)) · spline (o, r, g)) + bias o` (the spline table read
  through the host's transpose, the bias through its reshape); of the reference, `(0 + ∑ r, y (b, o, r)) + bias o`.
  Exchanging the two sums — addition on the extended reals is commutative and associative — leaves, edge by edge, the
  identity between the hat-basis sum and the linear interpolation in the coordinate's cell, which holds for real
  factors and real knot values.
-/
import proofs.«143318_j14714557956115_2_alg».proof.Proof.KerArray
import proofs.«143318_j14714557956115_2_alg».proof.Proof.RefValue
import Idealize.ShloMosaic.Lib.ValueLayout

noncomputable section

namespace Cert.Bridge

open Idealize.ShloMosaic Idealize.ShloMosaic.ValueIdx

/-- The transposed spline table at `(g, o, r)` is the table at `(o, r, g)`. -/
theorem spline_T (x2 : Cert.KernelIdeal.S256x256x16.Idx → EReal)
    (h : Cert.KernelIdeal.S256x256x16.Transposes [2, 0, 1] Cert.KernelIdeal.S16x256x256) (g : Fin 16) (o r : Fin 256) :
    transpose Cert.KernelIdeal.S16x256x256 [2, 0, 1] x2 h (ix3 g o r) = x2 (ix3 o r g) :=
  transpose_apply [2, 0, 1] x2 h (ix3 g o r) (ix3 o r g) (fun b => match b with
    | ⟨0, _⟩ => rfl
    | ⟨1, _⟩ => rfl
    | ⟨2, _⟩ => rfl)

/-- THE TWO PROGRAMS COMPUTE ONE ARRAY from inputs whose entries are all real. -/
theorem kernel_eq_reference (x0 : Cert.KernelIdeal.S1024x256.Idx → EReal) (x1 : Cert.KernelIdeal.S256x256.Idx → EReal)
    (x2 : Cert.KernelIdeal.S256x256x16.Idx → EReal) (x3 : Cert.KernelIdeal.S256.Idx → EReal)
    (hT : Cert.KernelIdeal.S256x256x16.Transposes [2, 0, 1] Cert.KernelIdeal.S16x256x256)
    (hS : Cert.KernelIdeal.S256.ShapeCasts Cert.KernelIdeal.S1x256)
    (h0 : ∀ i, ∃ r : ℝ, x0 i = (r : EReal)) (h1 : ∀ i, ∃ r : ℝ, x1 i = (r : EReal)) (h2 : ∀ i, ∃ r : ℝ, x2 i = (r : EReal)) :
    Cert.KernelIdeal.Array.G x0 x1 (transpose Cert.KernelIdeal.S16x256x256 [2, 0, 1] x2 hT) (shapeCast Cert.KernelIdeal.S1x256 x3 hS)
      = Cert.ReferenceIdeal.Read.val_main_v71 (F := Ideal) x0 x1 x2 x3 := by
  funext j
  obtain ⟨b, o, rfl⟩ : ∃ (b : Fin 1024) (o : Fin 256), j = ix2 b o := ⟨j 0, j 1, eq_ix2 j⟩
  rw [Cert.ReferenceIdeal.RefValue.result_apply]
  show Cert.KernelIdeal.Array.entry x0 x1 _ _ b o = _
  unfold Cert.KernelIdeal.Array.entry
  rw [shapeCast_a_1a_apply]
  refine congrArg₂ (· + ·) (congrArg (_ + ·) ?_) rfl
  rw [Finset.sum_comm]
  refine Finset.sum_congr rfl fun r _ => ?_
  obtain ⟨a, ha⟩ := h0 (ix2 b r)
  obtain ⟨w, hw⟩ := h1 (ix2 o r)
  choose s hs using fun g : Fin 16 => h2 (ix3 o r g)
  unfold Cert.ReferenceIdeal.RefValue.edge
  simp only [ha, hw, hs]
  refine (Finset.sum_congr rfl fun g _ => ?_).trans (Spline.interp_eq a w s)
  rw [spline_T, hs]

end Cert.Bridge

end
-- ==== Proof.Finite.lean ====
/-
  The precondition read back: every entry of every input array is a real number.

  The precondition is the conjunction, over the four inputs, of "all entries satisfy |x| < +∞". On the extended reals
  |x| is `max x (-x)`, and an element whose absolute value is below +∞ is neither +∞ nor -∞.
-/
import proofs.«143318_j14714557956115_2_alg».proof.Pre_finite_inputs
import Idealize.ShloMosaic.Lib.ReduceAll
import Idealize.ShloMosaic.Lib.ValueIdx
import Idealize.ShloMosaic.Lib.Affine
import Idealize.ShloMosaic.PureOps.Ideal

noncomputable section

namespace Cert.Finite

open Idealize.ShloMosaic Cert.Pre_finite_inputs

instance : Subsingleton S_.Idx := ⟨fun a b => funext fun d => d.elim0⟩

/-- An extended real whose absolute value compares below the float word of +∞ is a real number. -/
theorem real_of_lt_inf (x : EReal)
    (h : FloatOps.cmpf (F := Ideal) .olt (FloatOps.hostAbsf (F := Ideal) (φ := .f32) x) (FloatOps.ofBits (F := Ideal) .f32 0x7F800000#32) = 1#1) :
    ∃ r : ℝ, x = (r : EReal) := by
  have hinf : Ideal.ofBits .f32 0x7F800000#32 = ⊤ := by simp [Ideal.ofBits, Ideal.ieee]
  induction x using EReal.rec with
  | bot => exact absurd h (by simp [FloatOps.cmpf, FloatOps.hostAbsf, FloatOps.absf, Ideal.cmp, hinf])
  | coe r => exact ⟨r, rfl⟩
  | top => exact absurd h (by simp [FloatOps.cmpf, FloatOps.hostAbsf, FloatOps.absf, Ideal.cmp, hinf])

variable [Facts]

/-- UNDER THE PRECONDITION EVERY INPUT ENTRY IS REAL. -/
theorem real_of_pre (x0 : FVec Ideal S1024x256 .f32) (x1 : FVec Ideal S256x256 .f32) (x2 : FVec Ideal S256x256x16 .f32)
    (x3 : FVec Ideal S256 .f32) (h : fn (F := Ideal) x0 x1 x2 x3 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) := by
  have h0 := congrFun h ValueIdx.ix0
  dsimp only [fn, fn_part1] at h0
  obtain ⟨h012, h3⟩ := IntOp.andi_eq_one.mp h0
  obtain ⟨h01, h2⟩ := IntOp.andi_eq_one.mp h012
  obtain ⟨h0', h1⟩ := IntOp.andi_eq_one.mp h01
  refine ⟨fun i => ?_, fun i => ?_, fun i => ?_, fun i => ?_⟩
  · exact real_of_lt_inf (x0 i) (Host.reduce_andi_all _ _ _ _ ValueIdx.ix0 h0' i)
  · exact real_of_lt_inf (x1 i) (Host.reduce_andi_all _ _ _ _ ValueIdx.ix0 h1 i)
  · exact real_of_lt_inf (x2 i) (Host.reduce_andi_all _ _ _ _ ValueIdx.ix0 h2 i)
  · exact real_of_lt_inf (x3 i) (Host.reduce_andi_all _ _ _ _ ValueIdx.ix0 h3 i)

end Cert.Finite

end
-- ==== Proof.lean ====
/- The proof of `Cert.Claim`: a Kolmogorov–Arnold layer whose per-edge function is a piecewise-linear spline on sixteen uniform
   knots, computed by the kernel through the hat basis (a sum over knots of clipped hat weights, accumulated knot by knot
   over a loop) and by the reference through the cell index, two gathered knot values and a linear interpolation.
   The three frames are the generated ones (the reference's is its generated run with the result dropped); the idealization
   rewrote nothing, so `preserves` is trivial; `algebraic` puts the kernel's output array (one whole-array function of the
   inputs, Proof/KerArray.lean) beside the reference's result (Proof/RefValue.lean) and closes by the interpolation
   identity on real inputs (Proof/Bridge.lean, Proof/HatE.lean, Proof/Hat.lean); the precondition gives that every input
   entry is real (Proof/Finite.lean). -/
import proofs.«143318_j14714557956115_2_alg».proof.Defs
import proofs.«143318_j14714557956115_2_alg».proof.Proof.Gen.Kernel
import proofs.«143318_j14714557956115_2_alg».proof.Proof.Gen.Kernel.Skeleton
import proofs.«143318_j14714557956115_2_alg».proof.Proof.Gen.Kernel.Loops
import proofs.«143318_j14714557956115_2_alg».proof.Proof.Gen.Kernel.Launch
import proofs.«143318_j14714557956115_2_alg».proof.Proof.Gen.Kernel.Points
import proofs.«143318_j14714557956115_2_alg».proof.Proof.Gen.Kernel.Frame
import proofs.«143318_j14714557956115_2_alg».proof.Proof.Gen.KernelIdeal
import proofs.«143318_j14714557956115_2_alg».proof.Proof.Gen.KernelIdeal.Skeleton
import proofs.«143318_j14714557956115_2_alg».proof.Proof.Gen.KernelIdeal.Loops
import proofs.«143318_j14714557956115_2_alg».proof.Proof.Gen.KernelIdeal.Launch
import proofs.«143318_j14714557956115_2_alg».proof.Proof.Gen.KernelIdeal.Points
import proofs.«143318_j14714557956115_2_alg».proof.Proof.Gen.KernelIdeal.Frame
import proofs.«143318_j14714557956115_2_alg».proof.Proof.Gen.ReferenceIdeal
import proofs.«143318_j14714557956115_2_alg».proof.Proof.Gen.Pre_finite_inputs
import proofs.«143318_j14714557956115_2_alg».proof.Proof.Gen.KernelIdeal.Value
import proofs.«143318_j14714557956115_2_alg».proof.Proof.Gen.ReferenceIdeal.Run
import proofs.«143318_j14714557956115_2_alg».proof.Proof.Gen.ReferenceIdeal.Read
import proofs.«143318_j14714557956115_2_alg».proof.Proof.Bridge
import proofs.«143318_j14714557956115_2_alg».proof.Proof.Finite
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both programs end with the kernel's array function of the inputs: the kernel by its blocks (`Array.final`), the
    reference because on real inputs its result is that function (`Bridge.kernel_eq_reference`). -/
theorem algebraic : Cert.algebraic_KernelIdeal_ReferenceIdeal := by
  intro m ρ m' ρ' hpre hagree
  refine ⟨fun c => Cert.KernelIdeal.Array.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (transpose Cert.KernelIdeal.S16x256x256 [2, 0, 1] (m ((c.tc : Thread Cert.KernelIdeal.nD Cert.KernelIdeal.τ).loc Cert.KernelIdeal.main_arg2))
        Cert.KernelIdeal.Gen.transposes_S256x256x16_S16x256x256_2_0_1)
      (shapeCast Cert.KernelIdeal.S1x256 (m ((c.tc : Thread Cert.KernelIdeal.nD Cert.KernelIdeal.τ).loc Cert.KernelIdeal.main_arg3))
        Cert.KernelIdeal.Gen.shapeCasts_S256_S1x256), ?_, ?_⟩
  · exact (θ_run Cert.KernelIdeal.defs _ _).mono
      (fun r h c => ⟨(h c).1.trans (Cert.KernelIdeal.Array.final m c), (h c).2⟩)
      (Cert.KernelIdeal.Value.run_blocks (F := Ideal) m ρ)
  · refine (θ_run Cert.ReferenceIdeal.defs _ _).mono (fun _ h c => ⟨?_, (h c).2⟩)
      (Cert.ReferenceIdeal.Value.run (F := Ideal) m' ρ')
    obtain ⟨f0, f1, f2, -⟩ := Cert.Finite.real_of_pre _ _ _ _ (hpre c)
    rw [(h c).1, Cert.ReferenceIdeal.Read.val_main_v71_eq, (hagree c).1, (hagree c).2.1, (hagree c).2.2.1, (hagree c).2.2.2]
    exact (Cert.Bridge.kernel_eq_reference _ _ _ _ _ _ f0 f1 f2).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
